-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S1x1 : Shape := ⟨2, ![1, 1]⟩

abbrev nBuf : Space → Nat
  | .hbm => 80
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x64, .f32⟩
  | .hbm, ⟨41, _⟩ => ⟨S_, .f32⟩
  | .hbm, ⟨42, _⟩ => ⟨S100000x64, .f32⟩
  | .hbm, ⟨43, _⟩ => ⟨S1700000x1, .i32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S_, .f32⟩
  | .hbm, ⟨63, _⟩ => ⟨S256x64, .f32⟩
  | .hbm, ⟨64, _⟩ => ⟨S100000x1, .i32⟩
  | .hbm, ⟨65, _⟩ => ⟨S256x64, .f32⟩
  | .hbm, ⟨66, _⟩ => ⟨S_, .f32⟩
  | .hbm, ⟨67, _⟩ => ⟨S100000, .f32⟩
  | .hbm, ⟨68, _⟩ => ⟨S_, .f32⟩
  | .hbm, ⟨69, _⟩ => ⟨S256, .f32⟩
  | .hbm, ⟨70, _⟩ => ⟨S100000x1, .i32⟩
  | .hbm, ⟨71, _⟩ => ⟨S256, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S256x1, .f32⟩
  | .hbm, ⟨76, _⟩ => ⟨S256x64, .f32⟩
  | .hbm, ⟨77, _⟩ => ⟨S256x64, .f32⟩
  | .hbm, ⟨78, _⟩ => ⟨S1x1, .f32⟩
  | .hbm, ⟨79, _⟩ => ⟨S256, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x1, .f32⟩
  | .local _ .vmem, ⟨11, _⟩ => ⟨S5000x1, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x1, .f32⟩
  | .local _ .vmem, ⟨19, _⟩ => ⟨S5000x1, .f32⟩
  | .local _ .vmem, ⟨20, _⟩ => ⟨S5000x64, .f32⟩
  | .local _ .vmem, ⟨21, _⟩ => ⟨S5000x64, .f32⟩
  | .local _ .vmem, ⟨22, _⟩ => ⟨S256x64, .f32⟩
  | .local _ .vmem, ⟨23, _⟩ => ⟨S64x1, .f32⟩
  | .local _ .vmem, ⟨24, _⟩ => ⟨S1x1, .f32⟩
  | .local _ .vmem, ⟨25, _⟩ => ⟨S256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem1_0 : DmaSem sig := 23
abbrev cc3_sem2_0 : DmaSem sig := 24
abbrev cc3_sem3_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

abbrev stage3_0 : Fin 1 → Memref sig .tc .vmem S256x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  shapeCasts_S256x1_S256 : S256x1.ShapeCasts S256
  inb_S256_S256_0 : ∀ a, (![0] : Fin 1 → Nat) a + S256.size a ≤ S256.size a
  h_S256 : 0 < S256.numel
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x64.size a ≤ S256x64.size a
  hwx3_0 : ∀ i : grid3.Coords, EltTy.bits .f32 = 32 ∨ (Rect.block (s := S256x64) S256x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v52) S256x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S256.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S256x64, .f32⟩
  | .hbm, ⟨97, _⟩ => ⟨S100000x1, .i32⟩
  | .hbm, ⟨98, _⟩ => ⟨S256x64, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S256, .f32⟩
  | .hbm, ⟨103, _⟩ => ⟨S100000x1, .i32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S256x1, .f32⟩
  | .hbm, ⟨109, _⟩ => ⟨S256x64, .f32⟩
  | .hbm, ⟨110, _⟩ => ⟨S256x64, .f32⟩
  | .hbm, ⟨111, _⟩ => ⟨S256x1, .f32⟩
  | .hbm, ⟨112, _⟩ => ⟨S1x1, .f32⟩
  | .hbm, ⟨113, _⟩ => ⟨S256x1, .f32⟩
  | .hbm, ⟨114, _⟩ => ⟨S256x1, .f32⟩
  | .hbm, ⟨115, _⟩ => ⟨S256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.Spec.lean ====
/-
  The two arrangements of the network, as functions of the argument arrays, on the extended reals.

  A graph of 100000 nodes and 1600000 directed edges, each node joined to itself as well (1700000 edges in all). Edge e
  is aggregated at node dst e and gathers from node src e. With deg i the number of edges aggregated at i and
  dinv i = deg i ^ (−1/2) where deg i > 0, else 0, one layer maps node features h : [100000, 64] and a bias b to

      max(Σ over the edges e with dst e = i of h[src e, ·] · (dinv[src e] · dinv[dst e]) + b, 0)        (`refLayer`)

  which the other arrangement computes as max(dinv[i] · Σ over the same edges of (h · dinv)[src e, ·] + b, 0): it scales
  the rows of h by dinv BEFORE the edges gather them (`scaledProduct`, `hiddenProduct`: the scaling is fused into
  the feature products), sums the gathered rows unweighted (`edgeSum`), and scales by dinv once more when it adds the
  bias (`clampedAffine`, and inside `hiddenProduct`). Two layers, a mean over the nodes of each of 256 graphs
  (`pool`), and a linear head (`head`, or the host's product) follow in both.
-/
import proofs.«155471_j77704548319407_2_alg».proof.Proof.Gen.ReferenceIdeal
import Idealize.ShloMosaic.PureOps.Ideal
import Idealize.ShloMosaic.Lib.ValueIdx
import Idealize.ShloMosaic.Lib.Pipeline.Value

noncomputable section

namespace Cert.Gcn

open Cert.ReferenceIdeal Cert.ReferenceIdeal.Gen Idealize.ShloMosaic Idealize.ShloMosaic.ValueIdx

/-- A column `[a, 1]` cast back to the vector `[a]` reads, at `g`, the column at row `g`: both sit at row-major
    position `g`. -/
theorem shapeCast_a1_a_apply {α : Type} {a : ℕ} (x : (⟨2, ![a, 1]⟩ : Shape).Idx → α)
    (h : (⟨2, ![a, 1]⟩ : Shape).ShapeCasts ⟨1, ![a]⟩) (g : Fin a) :
    shapeCast ⟨1, ![a]⟩ x h (ix1 g) = x (ix2 g (0 : Fin 1)) :=
  shapeCast_apply x h _ _ (by
    rw [Shape.rowMajor_val_two, Shape.rowMajor_val_one]
    show g.val * 1 + 0 = g.val
    omega)

/-! ## The graph: edge endpoints, degrees, node weights -/

/-- The node each edge gathers from: the first row of the edge list, then every node once (the self loops). -/
def src (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The node each edge is aggregated at: the second row of the edge list, then every node once. -/
def dst (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The number of edges aggregated at each node: ones scattered by `dst` into zeros. -/
def deg (ei : IVec S2x1600000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dst ei)) (broadcastInDim S1700000 ![] bcast_S_S1700000 (constant S_ .f32 0x3F800000#32))

/-- The node weights: `deg ^ (−1/2)` where the degree is positive, else zero. -/
def dinv (ei : IVec S2x1600000 32) : FVec Ideal S100000 .f32 :=
  select (cmpf (F := Ideal) .ogt (deg ei) (broadcastInDim S100000 ![] bcast_S_S100000 (constant S_ .f32 0x00000000#32))) (Host.rsqrt (deg ei)) (broadcastInDim S100000 ![] bcast_S_S100000 (id (constant S_ .f32 0x00000000#32)))

/-- Start indices for a gather by node: a negative index counts from the end, and the vector becomes a column. -/
def wrap (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The weight of each edge: the product of its two endpoints' node weights. -/
def norm (ei : IVec S2x1600000 32) : FVec Ideal S1700000 .f32 :=
  mulf (Host.gather gather_S100000_S1700000x1_S1700000_n_0_n_n_0_1_1 (dinv ei) (wrap (src ei))) (Host.gather gather_S100000_S1700000x1_S1700000_n_0_n_n_0_1_1 (dinv ei) (wrap (dst ei)))

/-! ## One arrangement: weights per edge -/

/-- One layer with the weights applied per edge, then the bias and the clamp at zero. -/
def refLayer (ei : IVec S2x1600000 32) (h : FVec Ideal S100000x64 .f32) (b : FVec Ideal S64 .f32) : FVec Ideal S100000x64 .f32 :=
  maximumf (addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dst ei)) (mulf (Host.gather gather_S100000x64_S1700000x1_S1700000x64_1_0_n_n_0_1_164 h (wrap (src ei))) (broadcastInDim S1700000x64 ![0, 1] bcast_S1700000x1_S1700000x64_0_1 (broadcastInDim S1700000x1 ![0] bcast_S1700000_S1700000x1_0 (norm ei))))) (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The mean of the node features over the nodes of each graph (a graph with no node divides by one). -/
def pool (batch : IVec S100000 32) (h : FVec Ideal S100000x64 .f32) : FVec Ideal S256x64 .f32 :=
  Host.divf (Host.scatterAdd scatter_S256x64_S100000x1_S100000x64_1_0_0_1 (broadcastInDim S256x64 ![] bcast_S_S256x64 (constant S_ .f32 0x00000000#32)) (broadcastInDim S100000x1 ![0] bcast_S100000_S100000x1_0 batch) h) (broadcastInDim S256x64 ![0, 1] bcast_S256x1_S256x64_0_1 (broadcastInDim S256x1 ![0] bcast_S256_S256x1_0 (maximumf (Host.scatterAdd scatter_S256_S100000x1_S100000_n_0_0_1 (broadcastInDim S256 ![] bcast_S_S256 (constant S_ .f32 0x00000000#32)) (broadcastInDim S100000x1 ![0] bcast_S100000_S100000x1_0 batch) (broadcastInDim S100000 ![] bcast_S_S100000 (constant S_ .f32 0x3F800000#32))) (broadcastInDim S256 ![] bcast_S_S256 (constant S_ .f32 0x3F800000#32)))))

/-- The whole network with the weights applied per edge. -/
def refOut (x : FVec Ideal S100000x128 .f32) (ei : IVec S2x1600000 32) (batch : IVec S100000 32) (W1 : FVec Ideal S128x64 .f32)
    (b1 : FVec Ideal S64 .f32) (W2 : FVec Ideal S64x64 .f32) (b2 : FVec Ideal S64 .f32) (Wh : FVec Ideal S64x1 .f32)
    (bh : FVec Ideal S1 .f32) : FVec Ideal S256 .f32 :=
  shapeCast S256 (addf (Host.dotGeneral dot_S256x64_S64x1_S256x1_1_0_0_1_n_n none
      (pool batch (refLayer ei (Host.dotGeneral dot_S100000x64_S64x64_S100000x64_1_0_0_1_n_n none
        (refLayer ei (Host.dotGeneral dot_S100000x128_S128x64_S100000x64_1_0_0_1_n_n none x W1) b1) W2) b2)) Wh)
    (broadcastInDim S256x1 ![0, 1] bcast_S1x1_S256x1_0_1 (broadcastInDim S1x1 ![1] bcast_S1_S1x1_1 bh))) shapeCasts_S256x1_S256

/-! ## The other arrangement: weights per node -/

/-- The gathered rows summed at each edge's end node, unweighted. -/
def edgeSum (ei : IVec S2x1600000 32) (h : FVec Ideal S100000x64 .f32) : FVec Ideal S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dst ei)) (Host.gather gather_S100000x64_S1700000x1_S1700000x64_1_0_n_n_0_1_164 h (wrap (src ei)))

/-- Rows of the feature product, each scaled by its node's weight (a column `[nodes, 1]`). -/
def scaledProduct (x : FVec Ideal S100000x128 .f32) (w : FVec Ideal S128x64 .f32) (d : FVec Ideal S100000x1 .f32) :
    FVec Ideal S100000x64 .f32 :=
  fun i => (∑ e : Fin 128, x (ix2 (i 0) e) * w (ix2 e (i 1))) * d (ix2 (i 0) (0 : Fin 1))

/-- The clamped affine image of summed rows: `max(d · a + β, 0)`, the bias a row `[1, 64]`. -/
def clampedAffine (a : FVec Ideal S100000x64 .f32) (β : FVec Ideal S1x64 .f32) (d : FVec Ideal S100000x1 .f32) :
    FVec Ideal S100000x64 .f32 :=
  fun i => max (d (ix2 (i 0) (0 : Fin 1)) * a (ix2 (i 0) (i 1)) + β (ix2 (0 : Fin 1) (i 1))) (Ideal.ofBits .f32 0x00000000#32)

/-- The second feature product over the clamped affine image of summed rows, rows scaled by the node weight again. -/
def hiddenProduct (a : FVec Ideal S100000x64 .f32) (β : FVec Ideal S1x64 .f32) (d : FVec Ideal S100000x1 .f32)
    (w : FVec Ideal S64x64 .f32) : FVec Ideal S100000x64 .f32 :=
  fun i => (∑ e : Fin 64, max (d (ix2 (i 0) (0 : Fin 1)) * a (ix2 (i 0) e) + β (ix2 (0 : Fin 1) e)) (Ideal.ofBits .f32 0x00000000#32)
      * w (ix2 e (i 1))) * d (ix2 (i 0) (0 : Fin 1))

/-- The linear head: pooled features against the head's one column, plus the scalar bias (a `[1, 1]` array). -/
def head (P : FVec Ideal S256x64 .f32) (w : FVec Ideal S64x1 .f32) (β : FVec Ideal S1x1 .f32) : FVec Ideal S256 .f32 :=
  fun g => (∑ e : Fin 64, P (ix2 (g 0) e) * w (ix2 e (0 : Fin 1))) + β (ix2 (0 : Fin 1) (0 : Fin 1))

end Cert.Gcn

end
-- ==== Proof.Bodies.lean ====
/-
  The four kernel bodies, each read at one entry of the block it stores, on the extended reals.

  * Body 0 stores, at row p and feature q of its block, (Σ_e x[p,e]·W[e,q]) · d[p]: the rows of the block of node
    features times the whole weight matrix, each row scaled by its node's weight d (a column [rows, 1]).
  * Body 1 first forms h[p,e] = max(d[p]·a[p,e] + β[e], 0) from the block of aggregated rows a, the bias row β and
    the weights, then stores (Σ_e h[p,e]·W[e,q]) · d[p].
  * Body 2 stores max(d[p]·a[p,q] + β[q], 0).
  * Body 3 stores, at graph g, Σ_e P[g,e]·w[e] + β: the pooled features against the head's one column, plus the
    scalar bias.
  A change of float format is the identity on the extended reals, so the casts to the narrow format in front of the
  products do not appear.
-/
import proofs.«155471_j77704548319407_2_alg».proof.Proof.Gen.KernelIdeal.Frame
import proofs.«155471_j77704548319407_2_alg».proof.Proof.LibRowMax
import proofs.«155471_j77704548319407_2_alg».proof.Proof.LibColumn
import proofs.«155471_j77704548319407_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bodies

open Cert.KernelIdeal Cert.KernelIdeal.Gen Idealize.ShloMosaic Idealize.ShloMosaic.ValueIdx

/-- The zero word on the extended reals, as the bodies' clamps spell it. -/
abbrev zero : EReal := Ideal.ofBits .f32 0x00000000#32

/-- Body 0 at `(p, q)`. -/
theorem body0_apply (x : Vec Ideal S5000x128 .f32) (w : Vec Ideal S128x64 .f32) (d : Vec Ideal S5000x1 .f32)
    (j : S5000x64.Idx) (p : Fin 5000) (q : Fin 64) (hj : j = ix2 p q) :
    k0_pay1 x w d j = (∑ e : Fin 128, x (ix2 p e) * w (ix2 e q)) * d (ix2 p (0 : Fin 1)) := by
  subst hj
  unfold k0_pay1
  show (matmul (F := Ideal) dot_S5000x128_S128x64_S5000x64_1_0_0_1_n_n none (truncf .bf16 x bitsLt_bf16_f32) (truncf .bf16 w bitsLt_bf16_f32)
      (constant S5000x64 .f32 0x00000000#32)) (ix2 p q)
    * (broadcastTo S5000x64 (shapeCast S5000x1 d shapeCasts_S5000x1_S5000x1) broadcasts_S5000x1_S5000x64) (ix2 p q) = _
  rw [shapeCast_self, Cert.LibColumn.broadcastTo_a1_ab_apply d broadcasts_S5000x1_S5000x64 p q]
  refine congrArg (· * d (ix2 p (0 : Fin 1))) ?_
  exact Cert.LibRowMax.matmul_plain_apply (a := 5000) (k := 128) (b := 64) dot_S5000x128_S128x64_S5000x64_1_0_0_1_n_n.wf none
    (truncf .bf16 x bitsLt_bf16_f32) (truncf .bf16 w bitsLt_bf16_f32) p q

/-- What body 1 feeds its product with, at `(p, e)`: the clamped affine image of the aggregated row. -/
theorem hidden_apply (d : Vec Ideal S5000x1 .f32) (a : Vec Ideal S5000x64 .f32) (β : Vec Ideal S1x64 .f32)
    (p : Fin 5000) (e : Fin 64) :
    maximumf (addf (mulf (broadcastTo S5000x64 d broadcasts_S5000x1_S5000x64) a)
        (broadcastTo S5000x64 β broadcasts_S1x64_S5000x64))
      (broadcast S5000x64 (Scalar.ofBits (F := Ideal) .f32 0x00000000#32)) (ix2 p e)
    = max (d (ix2 p (0 : Fin 1)) * a (ix2 p e) + β (ix2 (0 : Fin 1) e)) zero := by
  show max ((broadcastTo S5000x64 d broadcasts_S5000x1_S5000x64) (ix2 p e) * a (ix2 p e)
      + (broadcastTo S5000x64 β broadcasts_S1x64_S5000x64) (ix2 p e)) zero = _
  rw [Cert.LibColumn.broadcastTo_a1_ab_apply d broadcasts_S5000x1_S5000x64 p e,
    broadcastTo_1b_ab_apply β broadcasts_S1x64_S5000x64 p e]

/-- Body 2 at `(p, q)`. -/
theorem body2_apply (d : Vec Ideal S5000x1 .f32) (a : Vec Ideal S5000x64 .f32) (β : Vec Ideal S1x64 .f32)
    (j : S5000x64.Idx) (p : Fin 5000) (q : Fin 64) (hj : j = ix2 p q) :
    k2_pay1 d a β j = max (d (ix2 p (0 : Fin 1)) * a (ix2 p q) + β (ix2 (0 : Fin 1) q)) zero := by
  subst hj
  unfold k2_pay1
  rw [shapeCast_self d, shapeCast_self a, shapeCast_self β]
  exact hidden_apply d a β p q

/-- Body 1 at `(p, q)`. -/
theorem body1_apply (d : Vec Ideal S5000x1 .f32) (a : Vec Ideal S5000x64 .f32) (β : Vec Ideal S1x64 .f32)
    (w : Vec Ideal S64x64 .f32) (j : S5000x64.Idx) (p : Fin 5000) (q : Fin 64) (hj : j = ix2 p q) :
    k1_pay1 d a β w j
      = (∑ e : Fin 64, max (d (ix2 p (0 : Fin 1)) * a (ix2 p e) + β (ix2 (0 : Fin 1) e)) zero * w (ix2 e q))
          * d (ix2 p (0 : Fin 1)) := by
  subst hj
  unfold k1_pay1
  rw [shapeCast_self d, shapeCast_self a, shapeCast_self β]
  show (matmul (F := Ideal) dot_S5000x64_S64x64_S5000x64_1_0_0_1_n_n none
        (truncf .bf16 (maximumf (addf (mulf (broadcastTo S5000x64 d broadcasts_S5000x1_S5000x64) a)
            (broadcastTo S5000x64 β broadcasts_S1x64_S5000x64))
          (broadcast S5000x64 (Scalar.ofBits (F := Ideal) .f32 0x00000000#32))) bitsLt_bf16_f32)
        (truncf .bf16 w bitsLt_bf16_f32) (constant S5000x64 .f32 0x00000000#32)) (ix2 p q)
    * (broadcastTo S5000x64 d broadcasts_S5000x1_S5000x64) (ix2 p q) = _
  rw [Cert.LibColumn.broadcastTo_a1_ab_apply d broadcasts_S5000x1_S5000x64 p q]
  refine congrArg (· * d (ix2 p (0 : Fin 1))) ?_
  refine (Cert.LibRowMax.matmul_plain_apply (a := 5000) (k := 64) (b := 64) dot_S5000x64_S64x64_S5000x64_1_0_0_1_n_n.wf none
    _ (truncf .bf16 w bitsLt_bf16_f32) p q).trans ?_
  refine Finset.sum_congr rfl fun e _ => ?_
  refine congrArg (· * w (ix2 e q)) ?_
  exact hidden_apply d a β p e

/-- Body 3 at `g`. -/
theorem body3_apply (P : Vec Ideal S256x64 .f32) (w : Vec Ideal S64x1 .f32) (β : Vec Ideal S1x1 .f32)
    (j : S256.Idx) (g : Fin 256) (hj : j = ix1 g) :
    k3_pay1 P w β j = (∑ e : Fin 64, P (ix2 g e) * w (ix2 e (0 : Fin 1))) + β (ix2 (0 : Fin 1) (0 : Fin 1)) := by
  subst hj
  unfold k3_pay1
  refine (Cert.Gcn.shapeCast_a1_a_apply _ shapeCasts_S256x1_S256 g).trans ?_
  rw [shapeCast_self, shapeCast_self]
  show (matmul (F := Ideal) dot_S256x64_S64x1_S256x1_1_0_0_1_n_n (some .fp32) P w (constant S256x1 .f32 0x00000000#32)) (ix2 g (0 : Fin 1))
    + (broadcastTo S256x1 β broadcasts_S1x1_S256x1) (ix2 g (0 : Fin 1)) = _
  rw [broadcastTo_1b_ab_apply β broadcasts_S1x1_S256x1 g (0 : Fin 1)]
  refine congrArg (· + β (ix2 (0 : Fin 1) (0 : Fin 1))) ?_
  exact Cert.LibRowMax.matmul_plain_apply (a := 256) (k := 64) (b := 1) dot_S256x64_S64x1_S256x1_1_0_0_1_n_n.wf (some .fp32) P w g (0 : Fin 1)

end Cert.KernelIdeal.Bodies

end
-- ==== Proof.ScaledProduct.lean ====
/-
  The first kernel call, as one function of the arrays it finds.

  The call walks 20 grid points; point t is handed rows 5000·t … 5000·t + 4999 of the node features (all 128 columns),
  the whole 128 × 64 weight matrix, and the same rows of the column of node weights, and writes back the same rows of its
  result (all 64 columns). What a point writes is, entry by entry, the matching entries of

      scaledProduct x w d [i, q] = (Σ_e x[i, e] · w[e, q]) · d[i]

  of the whole arrays, because a block's entry (p, ·) IS the array's entry (5000·t + p, ·). The 20 blocks tile the
  100000 rows, so after the call the result array is `scaledProduct` of the arrays the call was entered with.
-/
import proofs.«155471_j77704548319407_2_alg».proof.Proof.Gen.KernelIdeal.Frame
import proofs.«155471_j77704548319407_2_alg».proof.Proof.Bodies
import proofs.«155471_j77704548319407_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ScaledProduct

open Cert.KernelIdeal Cert.KernelIdeal.Gen Idealize.ShloMosaic Idealize.ShloMosaic.TcCoe Idealize.SL.Sem Idealize.ShloMosaic.ValueIdx
open Idealize.ShloMosaic.Pipeline (Dat)
open Cert.Gcn (scaledProduct)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: the row-blocked windows sit at block row `t`, the weight matrix at
    block (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The feature block at point `t`, entry `y`, is the array's entry `k` on row `5000·t + y₀`. -/
theorem features_apply (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = V c main_arg0 k := by
  obtain ⟨⟨h0, h1⟩, -⟩ := idx_facts t
  unfold iblk0
  rw [View.read_apply]
  show V c main_arg0 _ = V c main_arg0 _
  refine congrArg (V c main_arg0) (funext fun a => Fin.ext ?_)
  match a with
  | ⟨0, _⟩ => show win0_0.index t 0 * 5000 + 1 * (y 0).val = (k 0).val; rw [h0, hk0]; omega
  | ⟨1, _⟩ => show win0_0.index t 1 * 128 + 1 * (y 1).val = (k 1).val; rw [h1, hk1]; omega

/-- The weight block at every point is the whole matrix. -/
theorem weights_apply (c : Dev nD) (t : Fin cfg0.N) (y : S128x64.Idx) :
    (iblk0 V c 1 t : Vec Ideal S128x64 .f32) y = V c main_arg3 y := by
  obtain ⟨-, ⟨h0, h1⟩, -⟩ := idx_facts t
  unfold iblk0
  rw [View.read_apply]
  show V c main_arg3 _ = V c main_arg3 _
  refine congrArg (V c main_arg3) (funext fun a => Fin.ext ?_)
  match a with
  | ⟨0, _⟩ => show win0_1.index t 0 * 128 + 1 * (y 0).val = (y 0).val; rw [h0]; omega
  | ⟨1, _⟩ => show win0_1.index t 1 * 64 + 1 * (y 1).val = (y 1).val; rw [h1]; omega

/-- The block of node weights at point `t`, entry `y`, is the column's entry `k` on row `5000·t + y₀`. -/
theorem scale_apply (c : Dev nD) (t : Fin cfg0.N) (y : S5000x1.Idx) (k : S100000x1.Idx)
    (hk0 : (k 0).val = 5000 * t.val + (y 0).val) :
    (iblk0 V c 2 t : Vec Ideal S5000x1 .f32) y = V c main_v15 k := by
  obtain ⟨-, -, ⟨h0, h1⟩, -⟩ := idx_facts t
  unfold iblk0
  rw [View.read_apply]
  show V c main_v15 _ = V c main_v15 _
  refine congrArg (V c main_v15) (funext fun a => Fin.ext ?_)
  match a with
  | ⟨0, _⟩ => show win0_2.index t 0 * 5000 + 1 * (y 0).val = (k 0).val; rw [h0, hk0]; omega
  | ⟨1, _⟩ =>
    show win0_2.index t 1 * 1 + 1 * (y 1).val = (k 1).val
    have hy : (y 1).val < 1 := (y 1).isLt
    have hk : (k 1).val < 1 := (k 1).isLt
    rw [h1]; omega

/-- WHAT POINT `t` WRITES BACK is its block of `scaledProduct` of the arrays the call was entered with. -/
theorem flushed_eq (c : Dev nD) (t : Fin cfg0.N) :
    (dat0 V c).flushed 3 t
      = ((cfg0.win 3).blk t).view.read (Elt Ideal) (scaledProduct (V c main_arg0) (V c main_arg3) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S5000x1) hz]
  obtain ⟨-, -, -, ⟨h0, h1⟩⟩ := idx_facts t
  funext j
  show k0_pay1 (iblk0 V c 0 t) (iblk0 V c 1 t) (iblk0 V c 2 t) j
    = scaledProduct (V c main_arg0) (V c main_arg3) (V c main_v15) (((cfg0.win 3).blk t).view.emb j)
  refine (Cert.KernelIdeal.Bodies.body0_apply _ _ _ j (j 0) (j 1) (eq_ix2 j)).trans ?_
  have e0 : ((((cfg0.win 3).blk t).view.emb j) 0).val = 5000 * t.val + (j 0).val := by
    show win0_3.index t 0 * 5000 + 1 * (j 0).val = _; rw [h0]; omega
  have e1 : ((((cfg0.win 3).blk t).view.emb j) 1).val = (j 1).val := by
    show win0_3.index t 1 * 64 + 1 * (j 1).val = _; rw [h1]; omega
  unfold scaledProduct
  refine congrArg₂ (· * ·) (Finset.sum_congr rfl fun e _ => congrArg₂ (· * ·) ?_ ?_) ?_
  · exact features_apply V c t _ _ e0 rfl
  · refine (weights_apply V c t _).trans (congrArg (V c main_arg3) (funext fun a => Fin.ext ?_))
    match a with
    | ⟨0, _⟩ => rfl
    | ⟨1, _⟩ => exact e1.symm
  · exact scale_apply V c t _ _ e0

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- Every row of the result lies in the block of the point `row / 5000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, ⟨h0, h1⟩⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ 0 * 5000 ≤ (i 0).val
      ∧ (i 0).val < win0_3.index ⟨(i 0).val / 5000, ht⟩ 0 * 5000 + 5000
    rw [h0]; show (i 0).val / 5000 * 5000 ≤ (i 0).val ∧ (i 0).val < (i 0).val / 5000 * 5000 + 5000; omega
  | ⟨1, _⟩ =>
    show win0_3.index ⟨(i 0).val / 5000, ht⟩ 1 * 64 ≤ (i 1).val
      ∧ (i 1).val < win0_3.index ⟨(i 0).val / 5000, ht⟩ 1 * 64 + 64
    rw [h1]; omega

/-- THE RESULT ARRAY after the call. -/
theorem final (c : Dev nD) :
    (dat0 V c).arrAt 3 cfg0.N = scaledProduct (V c main_arg0) (V c main_arg3) (V c main_v15) :=
  (dat0 V c).arrAt_eq_of_cover 3 _ (fun t _ => flushed_eq V c t) cover

end Cert.KernelIdeal.ScaledProduct

end
-- ==== Proof.HiddenProduct.lean ====
/-
  The second kernel call, as one function of the arrays it finds.

  20 grid points; point t is handed rows 5000·t … 5000·t + 4999 of the summed rows (64 columns), the whole bias row
  [1, 64], the same rows of the column of node weights, and the whole 64 × 64 weight matrix, and writes back the same rows
  of

      hiddenProduct a β d w [i, q] = (Σ_e max(d[i] · a[i, e] + β[e], 0) · w[e, q]) · d[i].

  A block's entry (p, ·) is the array's entry (5000·t + p, ·), and the 20 blocks tile the 100000 rows.
-/
import proofs.«155471_j77704548319407_2_alg».proof.Proof.Gen.KernelIdeal.Frame
import proofs.«155471_j77704548319407_2_alg».proof.Proof.Bodies
import proofs.«155471_j77704548319407_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HiddenProduct

open Cert.KernelIdeal Cert.KernelIdeal.Gen Idealize.ShloMosaic Idealize.ShloMosaic.TcCoe Idealize.SL.Sem Idealize.ShloMosaic.ValueIdx
open Idealize.ShloMosaic.Pipeline (Dat)
open Cert.Gcn (hiddenProduct)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: the row-blocked windows sit at block row `t`, the bias row and the
    weight matrix at block (0, 0). -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0) :=
  (by decide +kernel : ∀ t : Fin grid1.N, _)

/-- The block of summed rows at point `t`, entry `y`, is the array's entry `k` on row `5000·t + y₀`. -/
theorem sums_apply (c : Dev nD) (t : Fin cfg1.N) (y : S5000x64.Idx) (k : S100000x64.Idx)
    (hk0 : (k 0).val = 5000 * t.val + (y 0).val) (hk1 : (k 1).val = (y 1).val) :
    (iblk1 V c 0 t : Vec Ideal S5000x64 .f32) y = V c main_v26 k := by
  obtain ⟨⟨h0, h1⟩, -⟩ := idx_facts t
  unfold iblk1
  rw [View.read_apply]
  show V c main_v26 _ = V c main_v26 _
  refine congrArg (V c main_v26) (funext fun a => Fin.ext ?_)
  match a with
  | ⟨0, _⟩ => show win1_0.index t 0 * 5000 + 1 * (y 0).val = (k 0).val; rw [h0, hk0]; omega
  | ⟨1, _⟩ => show win1_0.index t 1 * 64 + 1 * (y 1).val = (k 1).val; rw [h1, hk1]; omega

/-- The bias block at every point is the whole row. -/
theorem bias_apply (c : Dev nD) (t : Fin cfg1.N) (y : S1x64.Idx) :
    (iblk1 V c 1 t : Vec Ideal S1x64 .f32) y = V c main_v27 y := by
  obtain ⟨-, ⟨h0, h1⟩, -⟩ := idx_facts t
  unfold iblk1
  rw [View.read_apply]
  show V c main_v27 _ = V c main_v27 _
  refine congrArg (V c main_v27) (funext fun a => Fin.ext ?_)
  match a with
  | ⟨0, _⟩ => show win1_1.index t 0 * 1 + 1 * (y 0).val = (y 0).val; rw [h0]; omega
  | ⟨1, _⟩ => show win1_1.index t 1 * 64 + 1 * (y 1).val = (y 1).val; rw [h1]; omega

/-- The block of node weights at point `t`, entry `y`, is the column's entry `k` on row `5000·t + y₀`. -/
theorem scale_apply (c : Dev nD) (t : Fin cfg1.N) (y : S5000x1.Idx) (k : S100000x1.Idx)
    (hk0 : (k 0).val = 5000 * t.val + (y 0).val) :
    (iblk1 V c 2 t : Vec Ideal S5000x1 .f32) y = V c main_v15 k := by
  obtain ⟨-, -, ⟨h0, h1⟩, -⟩ := idx_facts t
  unfold iblk1
  rw [View.read_apply]
  show V c main_v15 _ = V c main_v15 _
  refine congrArg (V c main_v15) (funext fun a => Fin.ext ?_)
  match a with
  | ⟨0, _⟩ => show win1_2.index t 0 * 5000 + 1 * (y 0).val = (k 0).val; rw [h0, hk0]; omega
  | ⟨1, _⟩ =>
    show win1_2.index t 1 * 1 + 1 * (y 1).val = (k 1).val
    have hy : (y 1).val < 1 := (y 1).isLt
    have hk : (k 1).val < 1 := (k 1).isLt
    rw [h1]; omega

/-- The weight block at every point is the whole matrix. -/
theorem weights_apply (c : Dev nD) (t : Fin cfg1.N) (y : S64x64.Idx) :
    (iblk1 V c 3 t : Vec Ideal S64x64 .f32) y = V c main_arg5 y := by
  obtain ⟨-, -, -, ⟨h0, h1⟩, -⟩ := idx_facts t
  unfold iblk1
  rw [View.read_apply]
  show V c main_arg5 _ = V c main_arg5 _
  refine congrArg (V c main_arg5) (funext fun a => Fin.ext ?_)
  match a with
  | ⟨0, _⟩ => show win1_3.index t 0 * 64 + 1 * (y 0).val = (y 0).val; rw [h0]; omega
  | ⟨1, _⟩ => show win1_3.index t 1 * 64 + 1 * (y 1).val = (y 1).val; rw [h1]; omega

/-- WHAT POINT `t` WRITES BACK is its block of `hiddenProduct` of the arrays the call was entered with. -/
theorem flushed_eq (c : Dev nD) (t : Fin cfg1.N) :
    (dat1 V c).flushed 4 t
      = ((cfg1.win 4).blk t).view.read (Elt Ideal)
          (hiddenProduct (V c main_v26) (V c main_v27) (V c main_v15) (V c main_arg5)) := by
  show (cfg1.win 4).cut (grid1.coords t) ((dat1 V c).after 4 t) = _
  rw [after1_4]
  unfold out1_4
  rw [View.canon_unit_zero hz]
  simp only [View.ld_unit_zero (S := S5000x64) hz, View.ld_unit_zero (S := S1x64) hz, View.ld_unit_zero (S := S5000x1) hz,
    View.ld_unit_zero (S := S64x64) hz]
  obtain ⟨-, -, -, -, ⟨h0, h1⟩⟩ := idx_facts t
  funext j
  show k1_pay1 (iblk1 V c 2 t) (iblk1 V c 0 t) (iblk1 V c 1 t) (iblk1 V c 3 t) j
    = hiddenProduct (V c main_v26) (V c main_v27) (V c main_v15) (V c main_arg5) (((cfg1.win 4).blk t).view.emb j)
  refine (Cert.KernelIdeal.Bodies.body1_apply _ _ _ _ j (j 0) (j 1) (eq_ix2 j)).trans ?_
  have e0 : ((((cfg1.win 4).blk t).view.emb j) 0).val = 5000 * t.val + (j 0).val := by
    show win1_4.index t 0 * 5000 + 1 * (j 0).val = _; rw [h0]; omega
  have e1 : ((((cfg1.win 4).blk t).view.emb j) 1).val = (j 1).val := by
    show win1_4.index t 1 * 64 + 1 * (j 1).val = _; rw [h1]; omega
  unfold hiddenProduct
  refine congrArg₂ (· * ·) (Finset.sum_congr rfl fun e _ => congrArg₂ (· * ·)
    (congrArg (max · _) (congrArg₂ (· + ·) (congrArg₂ (· * ·) ?_ ?_) ?_)) ?_) ?_
  · exact scale_apply V c t _ _ e0
  · exact sums_apply V c t _ _ e0 rfl
  · exact bias_apply V c t _
  · refine (weights_apply V c t _).trans (congrArg (V c main_arg5) (funext fun a => Fin.ext ?_))
    match a with
    | ⟨0, _⟩ => rfl
    | ⟨1, _⟩ => exact e1.symm
  · exact scale_apply V c t _ _ e0

/-- An index of the result array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v28).slice (win1_4.rect t)).set ↔ _
  rw [View.set_slice_whole, Rect.mem_set_unit]
  exact Iff.rfl

/-- Every row of the result lies in the block of the point `row / 5000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, ⟨h0, h1⟩⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ 0 * 5000 ≤ (i 0).val
      ∧ (i 0).val < win1_4.index ⟨(i 0).val / 5000, ht⟩ 0 * 5000 + 5000
    rw [h0]; show (i 0).val / 5000 * 5000 ≤ (i 0).val ∧ (i 0).val < (i 0).val / 5000 * 5000 + 5000; omega
  | ⟨1, _⟩ =>
    show win1_4.index ⟨(i 0).val / 5000, ht⟩ 1 * 64 ≤ (i 1).val
      ∧ (i 1).val < win1_4.index ⟨(i 0).val / 5000, ht⟩ 1 * 64 + 64
    rw [h1]; omega

/-- THE RESULT ARRAY after the call. -/
theorem final (c : Dev nD) :
    (dat1 V c).arrAt 4 cfg1.N = hiddenProduct (V c main_v26) (V c main_v27) (V c main_v15) (V c main_arg5) :=
  (dat1 V c).arrAt_eq_of_cover 4 _ (fun t _ => flushed_eq V c t) cover

end Cert.KernelIdeal.HiddenProduct

end
-- ==== Proof.ClampedAffine.lean ====
/-
  The third kernel call, as one function of the arrays it finds.

  20 grid points; point t is handed rows 5000·t … 5000·t + 4999 of the summed rows (64 columns), the whole bias row
  [1, 64], and the same rows of the column of node weights, and writes back the same rows of

      clampedAffine a β d [i, q] = max(d[i] · a[i, q] + β[q], 0).

  A block's entry (p, ·) is the array's entry (5000·t + p, ·), and the 20 blocks tile the 100000 rows.
-/
import proofs.«155471_j77704548319407_2_alg».proof.Proof.Gen.KernelIdeal.Frame
import proofs.«155471_j77704548319407_2_alg».proof.Proof.Bodies
import proofs.«155471_j77704548319407_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ClampedAffine

open Cert.KernelIdeal Cert.KernelIdeal.Gen Idealize.ShloMosaic Idealize.ShloMosaic.TcCoe Idealize.SL.Sem Idealize.ShloMosaic.ValueIdx
open Idealize.ShloMosaic.Pipeline (Dat)
open Cert.Gcn (clampedAffine)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: the row-blocked windows sit at block row `t`, the bias row at
    block (0, 0). -/
theorem idx_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0) :=
  (by decide +kernel : ∀ t : Fin grid2.N, _)

/-- The block of summed rows at point `t`, entry `y`, is the array's entry `k` on row `5000·t + y₀`. -/
theorem sums_apply (c : Dev nD) (t : Fin cfg2.N) (y : S5000x64.Idx) (k : S100000x64.Idx)
    (hk0 : (k 0).val = 5000 * t.val + (y 0).val) (hk1 : (k 1).val = (y 1).val) :
    (iblk2 V c 0 t : Vec Ideal S5000x64 .f32) y = V c main_v38 k := by
  obtain ⟨⟨h0, h1⟩, -⟩ := idx_facts t
  unfold iblk2
  rw [View.read_apply]
  show V c main_v38 _ = V c main_v38 _
  refine congrArg (V c main_v38) (funext fun a => Fin.ext ?_)
  match a with
  | ⟨0, _⟩ => show win2_0.index t 0 * 5000 + 1 * (y 0).val = (k 0).val; rw [h0, hk0]; omega
  | ⟨1, _⟩ => show win2_0.index t 1 * 64 + 1 * (y 1).val = (k 1).val; rw [h1, hk1]; omega

/-- The bias block at every point is the whole row. -/
theorem bias_apply (c : Dev nD) (t : Fin cfg2.N) (y : S1x64.Idx) :
    (iblk2 V c 1 t : Vec Ideal S1x64 .f32) y = V c main_v39 y := by
  obtain ⟨-, ⟨h0, h1⟩, -⟩ := idx_facts t
  unfold iblk2
  rw [View.read_apply]
  show V c main_v39 _ = V c main_v39 _
  refine congrArg (V c main_v39) (funext fun a => Fin.ext ?_)
  match a with
  | ⟨0, _⟩ => show win2_1.index t 0 * 1 + 1 * (y 0).val = (y 0).val; rw [h0]; omega
  | ⟨1, _⟩ => show win2_1.index t 1 * 64 + 1 * (y 1).val = (y 1).val; rw [h1]; omega

/-- The block of node weights at point `t`, entry `y`, is the column's entry `k` on row `5000·t + y₀`. -/
theorem scale_apply (c : Dev nD) (t : Fin cfg2.N) (y : S5000x1.Idx) (k : S100000x1.Idx)
    (hk0 : (k 0).val = 5000 * t.val + (y 0).val) :
    (iblk2 V c 2 t : Vec Ideal S5000x1 .f32) y = V c main_v15 k := by
  obtain ⟨-, -, ⟨h0, h1⟩, -⟩ := idx_facts t
  unfold iblk2
  rw [View.read_apply]
  show V c main_v15 _ = V c main_v15 _
  refine congrArg (V c main_v15) (funext fun a => Fin.ext ?_)
  match a with
  | ⟨0, _⟩ => show win2_2.index t 0 * 5000 + 1 * (y 0).val = (k 0).val; rw [h0, hk0]; omega
  | ⟨1, _⟩ =>
    show win2_2.index t 1 * 1 + 1 * (y 1).val = (k 1).val
    have hy : (y 1).val < 1 := (y 1).isLt
    have hk : (k 1).val < 1 := (k 1).isLt
    rw [h1]; omega

/-- WHAT POINT `t` WRITES BACK is its block of `clampedAffine` of the arrays the call was entered with. -/
theorem flushed_eq (c : Dev nD) (t : Fin cfg2.N) :
    (dat2 V c).flushed 3 t
      = ((cfg2.win 3).blk t).view.read (Elt Ideal) (clampedAffine (V c main_v38) (V c main_v39) (V c main_v15)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz, View.ld_unit_zero (S := S5000x1) hz]
  obtain ⟨-, -, -, ⟨h0, h1⟩⟩ := idx_facts t
  funext j
  show k2_pay1 (iblk2 V c 2 t) (iblk2 V c 0 t) (iblk2 V c 1 t) j
    = clampedAffine (V c main_v38) (V c main_v39) (V c main_v15) (((cfg2.win 3).blk t).view.emb j)
  refine (Cert.KernelIdeal.Bodies.body2_apply _ _ _ j (j 0) (j 1) (eq_ix2 j)).trans ?_
  have e0 : ((((cfg2.win 3).blk t).view.emb j) 0).val = 5000 * t.val + (j 0).val := by
    show win2_3.index t 0 * 5000 + 1 * (j 0).val = _; rw [h0]; omega
  have e1 : ((((cfg2.win 3).blk t).view.emb j) 1).val = (j 1).val := by
    show win2_3.index t 1 * 64 + 1 * (j 1).val = _; rw [h1]; omega
  unfold clampedAffine
  refine congrArg (max · _) (congrArg₂ (· + ·) (congrArg₂ (· * ·) ?_ ?_) ?_)
  · exact scale_apply V c t _ _ e0
  · exact sums_apply V c t _ _ e0 e1
  · refine (bias_apply V c t _).trans (congrArg (V c main_v39) (funext fun a => Fin.ext ?_))
    match a with
    | ⟨0, _⟩ => rfl
    | ⟨1, _⟩ => exact e1.symm

/-- An index of the result array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v40).slice (win2_3.rect t)).set ↔ _
  rw [View.set_slice_whole, Rect.mem_set_unit]
  exact Iff.rfl

/-- Every row of the result lies in the block of the point `row / 5000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, ⟨h0, h1⟩⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ 0 * 5000 ≤ (i 0).val
      ∧ (i 0).val < win2_3.index ⟨(i 0).val / 5000, ht⟩ 0 * 5000 + 5000
    rw [h0]; show (i 0).val / 5000 * 5000 ≤ (i 0).val ∧ (i 0).val < (i 0).val / 5000 * 5000 + 5000; omega
  | ⟨1, _⟩ =>
    show win2_3.index ⟨(i 0).val / 5000, ht⟩ 1 * 64 ≤ (i 1).val
      ∧ (i 1).val < win2_3.index ⟨(i 0).val / 5000, ht⟩ 1 * 64 + 64
    rw [h1]; omega

/-- THE RESULT ARRAY after the call. -/
theorem final (c : Dev nD) :
    (dat2 V c).arrAt 3 cfg2.N = clampedAffine (V c main_v38) (V c main_v39) (V c main_v15) :=
  (dat2 V c).arrAt_eq_of_cover 3 _ (fun t _ => flushed_eq V c t) cover

end Cert.KernelIdeal.ClampedAffine

end
-- ==== Proof.Head.lean ====
/-
  The last kernel call, as one function of the arrays it finds.

  One grid point: it is handed the whole pooled features [256, 64], the head's column [64, 1] and the bias [1, 1], and
  writes back the whole result vector

      head P w β [g] = Σ_e P[g, e] · w[e] + β.
-/
import proofs.«155471_j77704548319407_2_alg».proof.Proof.Gen.KernelIdeal.Frame
import proofs.«155471_j77704548319407_2_alg».proof.Proof.Bodies
import proofs.«155471_j77704548319407_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Head

open Cert.KernelIdeal Cert.KernelIdeal.Gen Idealize.ShloMosaic Idealize.ShloMosaic.TcCoe Idealize.SL.Sem Idealize.ShloMosaic.ValueIdx
open Idealize.ShloMosaic.Pipeline (Dat)
open Cert.Gcn (head)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps at the one point: every window sits at block 0. -/
theorem idx_facts : ∀ t : Fin cfg3.N,
    (win3_0.index t (0 : Fin 2) = 0 ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ win3_3.index t (0 : Fin 1) = 0 :=
  (by decide +kernel : ∀ t : Fin grid3.N, _)

/-- The block of pooled features is the whole array. -/
theorem pooled_apply (c : Dev nD) (t : Fin cfg3.N) (y : S256x64.Idx) (k : S256x64.Idx)
    (hk0 : (k 0).val = (y 0).val) (hk1 : (k 1).val = (y 1).val) :
    (iblk3 V c 0 t : Vec Ideal S256x64 .f32) y = V c main_v52 k := by
  obtain ⟨⟨h0, h1⟩, -⟩ := idx_facts t
  unfold iblk3
  rw [View.read_apply]
  show V c main_v52 _ = V c main_v52 _
  refine congrArg (V c main_v52) (funext fun a => Fin.ext ?_)
  match a with
  | ⟨0, _⟩ => show win3_0.index t 0 * 256 + 1 * (y 0).val = (k 0).val; rw [h0, hk0]; omega
  | ⟨1, _⟩ => show win3_0.index t 1 * 64 + 1 * (y 1).val = (k 1).val; rw [h1, hk1]; omega

/-- The block of the head's column is the whole column. -/
theorem column_apply (c : Dev nD) (t : Fin cfg3.N) (y : S64x1.Idx) :
    (iblk3 V c 1 t : Vec Ideal S64x1 .f32) y = V c main_arg7 y := by
  obtain ⟨-, ⟨h0, h1⟩, -⟩ := idx_facts t
  unfold iblk3
  rw [View.read_apply]
  show V c main_arg7 _ = V c main_arg7 _
  refine congrArg (V c main_arg7) (funext fun a => Fin.ext ?_)
  match a with
  | ⟨0, _⟩ => show win3_1.index t 0 * 64 + 1 * (y 0).val = (y 0).val; rw [h0]; omega
  | ⟨1, _⟩ => show win3_1.index t 1 * 1 + 1 * (y 1).val = (y 1).val; rw [h1]; omega

/-- The block of the bias is the whole `[1, 1]` array. -/
theorem bias_apply (c : Dev nD) (t : Fin cfg3.N) (y : S1x1.Idx) :
    (iblk3 V c 2 t : Vec Ideal S1x1 .f32) y = V c main_v53 y := by
  obtain ⟨-, -, ⟨h0, h1⟩, -⟩ := idx_facts t
  unfold iblk3
  rw [View.read_apply]
  show V c main_v53 _ = V c main_v53 _
  refine congrArg (V c main_v53) (funext fun a => Fin.ext ?_)
  match a with
  | ⟨0, _⟩ => show win3_2.index t 0 * 1 + 1 * (y 0).val = (y 0).val; rw [h0]; omega
  | ⟨1, _⟩ => show win3_2.index t 1 * 1 + 1 * (y 1).val = (y 1).val; rw [h1]; omega

/-- WHAT THE POINT WRITES BACK is `head` of the arrays the call was entered with. -/
theorem flushed_eq (c : Dev nD) (t : Fin cfg3.N) :
    (dat3 V c).flushed 3 t
      = ((cfg3.win 3).blk t).view.read (Elt Ideal) (head (V c main_v52) (V c main_arg7) (V c main_v53)) := by
  show (cfg3.win 3).cut (grid3.coords t) ((dat3 V c).after 3 t) = _
  rw [after3_3]
  unfold out3_3
  rw [View.canon_unit_zero hz1]
  simp only [View.ld_unit_zero (S := S256x64) hz, View.ld_unit_zero (S := S64x1) hz, View.ld_unit_zero (S := S1x1) hz]
  obtain ⟨-, -, -, h0⟩ := idx_facts t
  funext j
  show k3_pay1 (iblk3 V c 0 t) (iblk3 V c 1 t) (iblk3 V c 2 t) j
    = head (V c main_v52) (V c main_arg7) (V c main_v53) (((cfg3.win 3).blk t).view.emb j)
  refine (Cert.KernelIdeal.Bodies.body3_apply _ _ _ j (j 0) (eq_ix1 j)).trans ?_
  have e0 : ((((cfg3.win 3).blk t).view.emb j) 0).val = (j 0).val := by
    show win3_3.index t 0 * 256 + 1 * (j 0).val = _; rw [h0]; omega
  unfold head
  refine congrArg₂ (· + ·) (Finset.sum_congr rfl fun e _ => congrArg₂ (· * ·) ?_ ?_) ?_
  · exact pooled_apply V c t _ _ e0 rfl
  · exact column_apply V c t _
  · exact bias_apply V c t _

/-- An index of the result vector is in the point's block iff its coordinate is in the block's range. -/
theorem mem_blk (t : Fin cfg3.N) (i : S256.Idx) :
    i ∈ ((cfg3.win 3).blk t).view.set ↔ ∀ a : Fin 1, win3_3.index t a * S256.size a ≤ (i a).val
      ∧ (i a).val < win3_3.index t a * S256.size a + S256.size a := by
  show i ∈ ((View.whole main_v54).slice (win3_3.rect t)).set ↔ _
  rw [View.set_slice_whole, Rect.mem_set_unit]
  exact Iff.rfl

/-- The one block is the whole vector. -/
theorem cover (i : S256.Idx) :
    ∃ t : Fin cfg3.N, (cfg3.win 3).flush t = true ∧ i ∈ ((cfg3.win 3).blk t).view.set := by
  have hi0 : (i 0).val < 256 := (i 0).isLt
  obtain ⟨-, -, -, h0⟩ := idx_facts t3_0
  refine ⟨t3_0, flush3_3 _, ?_⟩
  rw [mem_blk]
  intro a
  match a with
  | ⟨0, _⟩ =>
    show win3_3.index t3_0 0 * 256 ≤ (i 0).val ∧ (i 0).val < win3_3.index t3_0 0 * 256 + 256
    rw [h0]; omega

/-- THE RESULT VECTOR after the call. -/
theorem final (c : Dev nD) :
    (dat3 V c).arrAt 3 cfg3.N = head (V c main_v52) (V c main_arg7) (V c main_v53) :=
  (dat3 V c).arrAt_eq_of_cover 3 _ (fun t _ => flushed_eq V c t) cover

end Cert.KernelIdeal.Head

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.Fold.lean ====
/-
  The kernel program's result, read back through its run.

  The run is a fold: stretches of host operations, each applied to the buffer contents it finds, and four kernel calls,
  each leaving its result array at one function of the arrays it was entered with (the four closed forms). Reading the
  fold from the launch memory forward gives every buffer the later steps use as a term of the nine argument arrays:

    the edge endpoints `src`, `dst` and the node weights as a column, before the first call;
    after call 0 the scaled feature product; then its rows gathered along the edges and summed (`edgeSum`);
    after call 1 the second scaled product over the clamped affine image; its rows gathered and summed again;
    after call 2 the clamped affine image; then its mean over each graph's nodes (`pool`);
    after call 3 the head.

  An argument array, the edge endpoints and the node weights are written by no later step, so each is read at any later
  boundary by walking back to where it was made (a kernel call's input array comes out of the call as it went in).
-/
import proofs.«155471_j77704548319407_2_alg».proof.Proof.Gen.KernelIdeal.Frame
import proofs.«155471_j77704548319407_2_alg».proof.Proof.ScaledProduct
import proofs.«155471_j77704548319407_2_alg».proof.Proof.HiddenProduct
import proofs.«155471_j77704548319407_2_alg».proof.Proof.ClampedAffine
import proofs.«155471_j77704548319407_2_alg».proof.Proof.Head
import proofs.«155471_j77704548319407_2_alg».proof.Proof.Spec
import Idealize.ShloMosaic.Lib.StableHlo.Run
import proofs.«155471_j77704548319407_2_alg».proof.Proof.LibStretch

noncomputable section

namespace Cert.KernelIdeal.Fold

open Cert.KernelIdeal Cert.KernelIdeal.Gen Idealize.ShloMosaic Idealize.ShloMosaic.TcCoe Idealize.SL.Sem
open Idealize.ShloMosaic.StableHlo (after_of_forall_not_mem)
open Idealize.ShloMosaic.Pipeline (Dat)
open Cert.Gcn (src dst dinv edgeSum pool scaledProduct hiddenProduct clampedAffine head)

variable (m : (ℓ : Loc nD τ sig) → Buf (Elt Ideal) ℓ) (ρ : Dev nD → PrngReg) (c : Dev nD)

/-- Rows gathered at the start indices `s` and summed at the end nodes `d` (`edgeSum` with the endpoints as parameters). -/
def edgeSumAt (s d : IVec Cert.ReferenceIdeal.S1700000 32) (h : FVec Ideal Cert.ReferenceIdeal.S100000x64 .f32) :
    FVec Ideal Cert.ReferenceIdeal.S100000x64 .f32 :=
  Host.scatterAdd Cert.ReferenceIdeal.scatter_S100000x64_S1700000x1_S1700000x64_1_0_0_1
    (broadcastInDim Cert.ReferenceIdeal.S100000x64 ![] Cert.ReferenceIdeal.Gen.bcast_S_S100000x64 (constant Cert.ReferenceIdeal.S_ .f32 0x00000000#32))
    (broadcastInDim Cert.ReferenceIdeal.S1700000x1 ![0] Cert.ReferenceIdeal.Gen.bcast_S1700000_S1700000x1_0 d)
    (Host.gather Cert.ReferenceIdeal.gather_S100000x64_S1700000x1_S1700000x64_1_0_n_n_0_1_164 h (Cert.Gcn.wrap s))

theorem edgeSumAt_eq (ei : IVec Cert.ReferenceIdeal.S2x1600000 32) (h : FVec Ideal Cert.ReferenceIdeal.S100000x64 .f32) :
    edgeSumAt (src ei) (dst ei) h = edgeSum ei h := rfl

/-- A lane-by-lane select of equal conditions and equal branches. -/
theorem select_congr {s : Shape} {α : Type} {c c' : IVec s 1} {a a' b b' : s.Idx → α} (hc : c = c') (ha : a = a') (hb : b = b') :
    select c a b = select c' a' b' := by subst hc ha hb; rfl

/-! ## Before the first call -/

theorem W3_arg0 : W3 m ρ c (Proc.devRef .tc main_arg0) = (m ((c : Thread nD τ).loc main_arg0)) := by
  show StableHlo.after hostOps0_2 (StableHlo.after hostOps0_1 (StableHlo.after hostOps0 (W0 m ρ c))) _ = _
  after_results
theorem W3_arg2 : W3 m ρ c (Proc.devRef .tc main_arg2) = (m ((c : Thread nD τ).loc main_arg2)) := by
  show StableHlo.after hostOps0_2 (StableHlo.after hostOps0_1 (StableHlo.after hostOps0 (W0 m ρ c))) _ = _
  after_results
theorem W3_arg3 : W3 m ρ c (Proc.devRef .tc main_arg3) = (m ((c : Thread nD τ).loc main_arg3)) := by
  show StableHlo.after hostOps0_2 (StableHlo.after hostOps0_1 (StableHlo.after hostOps0 (W0 m ρ c))) _ = _
  after_results
theorem W3_arg4 : W3 m ρ c (Proc.devRef .tc main_arg4) = (m ((c : Thread nD τ).loc main_arg4)) := by
  show StableHlo.after hostOps0_2 (StableHlo.after hostOps0_1 (StableHlo.after hostOps0 (W0 m ρ c))) _ = _
  after_results
theorem W3_arg5 : W3 m ρ c (Proc.devRef .tc main_arg5) = (m ((c : Thread nD τ).loc main_arg5)) := by
  show StableHlo.after hostOps0_2 (StableHlo.after hostOps0_1 (StableHlo.after hostOps0 (W0 m ρ c))) _ = _
  after_results
theorem W3_arg6 : W3 m ρ c (Proc.devRef .tc main_arg6) = (m ((c : Thread nD τ).loc main_arg6)) := by
  show StableHlo.after hostOps0_2 (StableHlo.after hostOps0_1 (StableHlo.after hostOps0 (W0 m ρ c))) _ = _
  after_results
theorem W3_arg7 : W3 m ρ c (Proc.devRef .tc main_arg7) = (m ((c : Thread nD τ).loc main_arg7)) := by
  show StableHlo.after hostOps0_2 (StableHlo.after hostOps0_1 (StableHlo.after hostOps0 (W0 m ρ c))) _ = _
  after_results
theorem W3_arg8 : W3 m ρ c (Proc.devRef .tc main_arg8) = (m ((c : Thread nD τ).loc main_arg8)) := by
  show StableHlo.after hostOps0_2 (StableHlo.after hostOps0_1 (StableHlo.after hostOps0 (W0 m ρ c))) _ = _
  after_results

/-- The node each edge gathers from. -/
theorem W3_v5 : W3 m ρ c (Proc.devRef .tc main_v5) = src (m ((c : Thread nD τ).loc main_arg1)) := by
  show StableHlo.after hostOps0_2 (StableHlo.after hostOps0_1 (StableHlo.after hostOps0 (W0 m ρ c))) _ = _
  after_results
  rfl
/-- The node each edge is aggregated at. -/
theorem W3_v6 : W3 m ρ c (Proc.devRef .tc main_v6) = dst (m ((c : Thread nD τ).loc main_arg1)) := by
  show StableHlo.after hostOps0_2 (StableHlo.after hostOps0_1 (StableHlo.after hostOps0 (W0 m ρ c))) _ = _
  after_results_simp <;> rfl
/-- The degrees: ones summed at each edge's end node. -/
theorem W1_v10 : W1 m ρ c (Proc.devRef .tc main_v10) = Cert.Gcn.deg (m ((c : Thread nD τ).loc main_arg1)) := by
  show StableHlo.after hostOps0 (W0 m ρ c) _ = _
  after_results_simp <;> rfl
/-- The node weights: the guarded reciprocal square root of the degrees. -/
theorem W2_v14 : W2 m ρ c (Proc.devRef .tc main_v14) = dinv (m ((c : Thread nD τ).loc main_arg1)) := by
  have e10 := W1_v10 m ρ c
  have e11 : W1 m ρ c (Proc.devRef .tc main_v11) = broadcastInDim S100000 ![] bcast_S_S100000 (constant (F := Ideal) S_ .f32 0x00000000#32) := by
    show StableHlo.after hostOps0 (W0 m ρ c) _ = _
    after_results_simp <;> rfl
  have e12 : W1 m ρ c (Proc.devRef .tc main_v12) = cmpf (F := Ideal) (s := S100000) (φ := .f32) .ogt (W1 m ρ c (Proc.devRef .tc main_v10)) (W1 m ρ c (Proc.devRef .tc main_v11)) := by
    show StableHlo.after hostOps0 (W0 m ρ c) _ = _
    after_results_simp <;> rfl
  have e13 : W1 m ρ c (Proc.devRef .tc main_v13) = Host.rsqrt (F := Ideal) (s := S100000) (φ := .f32) (W1 m ρ c (Proc.devRef .tc main_v10)) := by
    show StableHlo.after hostOps0 (W0 m ρ c) _ = _
    after_results_simp <;> rfl
  have ec : W1 m ρ c (Proc.devRef .tc main_cst_2) = constant (F := Ideal) S_ .f32 0x00000000#32 := by
    show StableHlo.after hostOps0 (W0 m ρ c) _ = _
    after_results_simp <;> rfl
  show StableHlo.after hostOps0_1 (W1 m ρ c) _ = _
  generalize W1 m ρ c = X at e10 e11 e12 e13 ec ⊢
  after_results_simp
  rw [e12, e13, ec, e11, e10, Cert.LibStretch.ofBuf_toBuf, Cert.LibStretch.ofBuf_toBuf]
  unfold dinv
  -- what is left are single transports of values along type equations that hold by computation
  refine eq_of_heq ((cast_heq _ _).trans (heq_of_eq ?_))
  refine select_congr ?_ ?_ ?_
  · exact eq_of_heq (cast_heq _ _)
  · exact eq_of_heq (cast_heq _ _)
  · exact congrArg (fun z : FVec Ideal S_ .f32 => broadcastInDim S100000 ![] bcast_S_S100000 (id z)) (eq_of_heq (cast_heq _ _))
/-- The node weights, as a column. -/
theorem W3_v15 : W3 m ρ c (Proc.devRef .tc main_v15) = (shapeCast S100000x1 (dinv (m ((c : Thread nD τ).loc main_arg1))) shapeCasts_S100000_S100000x1) := by
  have h : W3 m ρ c (Proc.devRef .tc main_v15) = shapeCast S100000x1 (W2 m ρ c (Proc.devRef .tc main_v14)) shapeCasts_S100000_S100000x1 := by
    show StableHlo.after hostOps0_2 (W2 m ρ c) _ = _
    after_results_simp <;> rfl
  rw [h, W2_v14]

/-! ## Call 0 and the first gather-and-sum -/

/-- After call 0: the feature product, rows scaled by the node weights. -/
theorem W4_v16 : W4 m ρ c (Proc.devRef .tc main_v16) = scaledProduct (m ((c : Thread nD τ).loc main_arg0)) (m ((c : Thread nD τ).loc main_arg3)) (shapeCast S100000x1 (dinv (m ((c : Thread nD τ).loc main_arg1))) shapeCasts_S100000_S100000x1) := by
  refine (W4_arr m ρ c 3).trans ((Cert.KernelIdeal.ScaledProduct.final (V3 m ρ) c).trans ?_)
  show scaledProduct (W3 m ρ c (Proc.devRef .tc main_arg0)) (W3 m ρ c (Proc.devRef .tc main_arg3)) (W3 m ρ c (Proc.devRef .tc main_v15)) = _
  rw [W3_arg0, W3_arg3, W3_v15]
theorem W4_v15 : W4 m ρ c (Proc.devRef .tc main_v15) = (shapeCast S100000x1 (dinv (m ((c : Thread nD τ).loc main_arg1))) shapeCasts_S100000_S100000x1) :=
  (W4_arr m ρ c 2).trans (((dat0 (V3 m ρ) c).arrAt_in 2 rfl _).trans ((A_eq0 (V3 m ρ) c 2).trans (W3_v15 m ρ c)))
theorem W4_v5 : W4 m ρ c (Proc.devRef .tc main_v5) = (src (m ((c : Thread nD τ).loc main_arg1))) :=
  (W4_of_ne m ρ c main_v5 (by decide)).trans (W3_v5 m ρ c)
theorem W4_v6 : W4 m ρ c (Proc.devRef .tc main_v6) = (dst (m ((c : Thread nD τ).loc main_arg1))) :=
  (W4_of_ne m ρ c main_v6 (by decide)).trans (W3_v6 m ρ c)
theorem W4_arg2 : W4 m ρ c (Proc.devRef .tc main_arg2) = (m ((c : Thread nD τ).loc main_arg2)) :=
  (W4_of_ne m ρ c main_arg2 (by decide)).trans (W3_arg2 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)

/-- The scaled rows gathered along the edges and summed at each edge's end node. -/
theorem W5_v26 : W5 m ρ c (Proc.devRef .tc main_v26) = edgeSum (m ((c : Thread nD τ).loc main_arg1)) (scaledProduct (m ((c : Thread nD τ).loc main_arg0)) (m ((c : Thread nD τ).loc main_arg3)) (shapeCast S100000x1 (dinv (m ((c : Thread nD τ).loc main_arg1))) shapeCasts_S100000_S100000x1)) := by
  have h : W5 m ρ c (Proc.devRef .tc main_v26)
      = edgeSumAt (W4 m ρ c (Proc.devRef .tc main_v5)) (W4 m ρ c (Proc.devRef .tc main_v6)) (W4 m ρ c (Proc.devRef .tc main_v16)) := by
    show StableHlo.after hostOps1 (W4 m ρ c) _ = _
    after_results_simp <;> rfl
  rw [h, W4_v5, W4_v6, W4_v16, edgeSumAt_eq]
/-- The first bias as a row. -/
theorem W5_v27 : W5 m ρ c (Proc.devRef .tc main_v27) = shapeCast S1x64 (m ((c : Thread nD τ).loc main_arg4)) shapeCasts_S64_S1x64 := by
  show StableHlo.after hostOps1 (W4 m ρ c) _ = _
  after_results
  rw [W4_arg4]
  rfl
theorem W5_v15 : W5 m ρ c (Proc.devRef .tc main_v15) = (shapeCast S100000x1 (dinv (m ((c : Thread nD τ).loc main_arg1))) shapeCasts_S100000_S100000x1) := by
  show StableHlo.after hostOps1 (W4 m ρ c) _ = _
  after_results
  exact W4_v15 m ρ c
theorem W5_v5 : W5 m ρ c (Proc.devRef .tc main_v5) = (src (m ((c : Thread nD τ).loc main_arg1))) := by
  show StableHlo.after hostOps1 (W4 m ρ c) _ = _
  after_results
  exact W4_v5 m ρ c
theorem W5_v6 : W5 m ρ c (Proc.devRef .tc main_v6) = (dst (m ((c : Thread nD τ).loc main_arg1))) := by
  show StableHlo.after hostOps1 (W4 m ρ c) _ = _
  after_results
  exact W4_v6 m ρ c
theorem W5_arg2 : W5 m ρ c (Proc.devRef .tc main_arg2) = (m ((c : Thread nD τ).loc main_arg2)) := by
  show StableHlo.after hostOps1 (W4 m ρ c) _ = _
  after_results
  exact W4_arg2 m ρ c
theorem W5_arg5 : W5 m ρ c (Proc.devRef .tc main_arg5) = (m ((c : Thread nD τ).loc main_arg5)) := by
  show StableHlo.after hostOps1 (W4 m ρ c) _ = _
  after_results
  exact W4_arg5 m ρ c
theorem W5_arg6 : W5 m ρ c (Proc.devRef .tc main_arg6) = (m ((c : Thread nD τ).loc main_arg6)) := by
  show StableHlo.after hostOps1 (W4 m ρ c) _ = _
  after_results
  exact W4_arg6 m ρ c
theorem W5_arg7 : W5 m ρ c (Proc.devRef .tc main_arg7) = (m ((c : Thread nD τ).loc main_arg7)) := by
  show StableHlo.after hostOps1 (W4 m ρ c) _ = _
  after_results
  exact W4_arg7 m ρ c
theorem W5_arg8 : W5 m ρ c (Proc.devRef .tc main_arg8) = (m ((c : Thread nD τ).loc main_arg8)) := by
  show StableHlo.after hostOps1 (W4 m ρ c) _ = _
  after_results
  exact W4_arg8 m ρ c

/-! ## Call 1 and the second gather-and-sum -/

/-- After call 1: the second product over the clamped affine image, rows scaled by the node weights. -/
theorem W6_v28 : W6 m ρ c (Proc.devRef .tc main_v28) = hiddenProduct (edgeSum (m ((c : Thread nD τ).loc main_arg1)) (scaledProduct (m ((c : Thread nD τ).loc main_arg0)) (m ((c : Thread nD τ).loc main_arg3)) (shapeCast S100000x1 (dinv (m ((c : Thread nD τ).loc main_arg1))) shapeCasts_S100000_S100000x1))) (shapeCast S1x64 (m ((c : Thread nD τ).loc main_arg4)) shapeCasts_S64_S1x64) (shapeCast S100000x1 (dinv (m ((c : Thread nD τ).loc main_arg1))) shapeCasts_S100000_S100000x1) (m ((c : Thread nD τ).loc main_arg5)) := by
  refine (W6_arr m ρ c 4).trans ((Cert.KernelIdeal.HiddenProduct.final (V5 m ρ) c).trans ?_)
  show hiddenProduct (W5 m ρ c (Proc.devRef .tc main_v26)) (W5 m ρ c (Proc.devRef .tc main_v27)) (W5 m ρ c (Proc.devRef .tc main_v15)) (W5 m ρ c (Proc.devRef .tc main_arg5)) = _
  rw [W5_v26, W5_v27, W5_v15, W5_arg5]
theorem W6_v15 : W6 m ρ c (Proc.devRef .tc main_v15) = (shapeCast S100000x1 (dinv (m ((c : Thread nD τ).loc main_arg1))) shapeCasts_S100000_S100000x1) :=
  (W6_arr m ρ c 2).trans (((dat1 (V5 m ρ) c).arrAt_in 2 rfl _).trans ((A_eq1 (V5 m ρ) c 2).trans (W5_v15 m ρ c)))
theorem W6_v5 : W6 m ρ c (Proc.devRef .tc main_v5) = (src (m ((c : Thread nD τ).loc main_arg1))) :=
  (W6_of_ne m ρ c main_v5 (by decide)).trans (W5_v5 m ρ c)
theorem W6_v6 : W6 m ρ c (Proc.devRef .tc main_v6) = (dst (m ((c : Thread nD τ).loc main_arg1))) :=
  (W6_of_ne m ρ c main_v6 (by decide)).trans (W5_v6 m ρ c)
theorem W6_arg2 : W6 m ρ c (Proc.devRef .tc main_arg2) = (m ((c : Thread nD τ).loc main_arg2)) :=
  (W6_of_ne m ρ c main_arg2 (by decide)).trans (W5_arg2 m ρ c)
theorem W6_arg6 : W6 m ρ c (Proc.devRef .tc main_arg6) = (m ((c : Thread nD τ).loc main_arg6)) :=
  (W6_of_ne m ρ c main_arg6 (by decide)).trans (W5_arg6 m ρ c)
theorem W6_arg7 : W6 m ρ c (Proc.devRef .tc main_arg7) = (m ((c : Thread nD τ).loc main_arg7)) :=
  (W6_of_ne m ρ c main_arg7 (by decide)).trans (W5_arg7 m ρ c)
theorem W6_arg8 : W6 m ρ c (Proc.devRef .tc main_arg8) = (m ((c : Thread nD τ).loc main_arg8)) :=
  (W6_of_ne m ρ c main_arg8 (by decide)).trans (W5_arg8 m ρ c)

theorem W7_v38 : W7 m ρ c (Proc.devRef .tc main_v38) = edgeSum (m ((c : Thread nD τ).loc main_arg1)) (hiddenProduct (edgeSum (m ((c : Thread nD τ).loc main_arg1)) (scaledProduct (m ((c : Thread nD τ).loc main_arg0)) (m ((c : Thread nD τ).loc main_arg3)) (shapeCast S100000x1 (dinv (m ((c : Thread nD τ).loc main_arg1))) shapeCasts_S100000_S100000x1))) (shapeCast S1x64 (m ((c : Thread nD τ).loc main_arg4)) shapeCasts_S64_S1x64) (shapeCast S100000x1 (dinv (m ((c : Thread nD τ).loc main_arg1))) shapeCasts_S100000_S100000x1) (m ((c : Thread nD τ).loc main_arg5))) := by
  have h : W7 m ρ c (Proc.devRef .tc main_v38)
      = edgeSumAt (W6 m ρ c (Proc.devRef .tc main_v5)) (W6 m ρ c (Proc.devRef .tc main_v6)) (W6 m ρ c (Proc.devRef .tc main_v28)) := by
    show StableHlo.after hostOps2 (W6 m ρ c) _ = _
    after_results_simp <;> rfl
  rw [h, W6_v5, W6_v6, W6_v28, edgeSumAt_eq]
/-- The second bias as a row. -/
theorem W7_v39 : W7 m ρ c (Proc.devRef .tc main_v39) = shapeCast S1x64 (m ((c : Thread nD τ).loc main_arg6)) shapeCasts_S64_S1x64 := by
  show StableHlo.after hostOps2 (W6 m ρ c) _ = _
  after_results
  rw [W6_arg6]
  rfl
theorem W7_v15 : W7 m ρ c (Proc.devRef .tc main_v15) = (shapeCast S100000x1 (dinv (m ((c : Thread nD τ).loc main_arg1))) shapeCasts_S100000_S100000x1) := by
  show StableHlo.after hostOps2 (W6 m ρ c) _ = _
  after_results
  exact W6_v15 m ρ c
theorem W7_arg2 : W7 m ρ c (Proc.devRef .tc main_arg2) = (m ((c : Thread nD τ).loc main_arg2)) := by
  show StableHlo.after hostOps2 (W6 m ρ c) _ = _
  after_results
  exact W6_arg2 m ρ c
theorem W7_arg7 : W7 m ρ c (Proc.devRef .tc main_arg7) = (m ((c : Thread nD τ).loc main_arg7)) := by
  show StableHlo.after hostOps2 (W6 m ρ c) _ = _
  after_results
  exact W6_arg7 m ρ c
theorem W7_arg8 : W7 m ρ c (Proc.devRef .tc main_arg8) = (m ((c : Thread nD τ).loc main_arg8)) := by
  show StableHlo.after hostOps2 (W6 m ρ c) _ = _
  after_results
  exact W6_arg8 m ρ c

/-! ## Call 2, the mean over each graph, and the head -/

/-- After call 2: the second layer's output. -/
theorem W8_v40 : W8 m ρ c (Proc.devRef .tc main_v40) = clampedAffine (edgeSum (m ((c : Thread nD τ).loc main_arg1)) (hiddenProduct (edgeSum (m ((c : Thread nD τ).loc main_arg1)) (scaledProduct (m ((c : Thread nD τ).loc main_arg0)) (m ((c : Thread nD τ).loc main_arg3)) (shapeCast S100000x1 (dinv (m ((c : Thread nD τ).loc main_arg1))) shapeCasts_S100000_S100000x1))) (shapeCast S1x64 (m ((c : Thread nD τ).loc main_arg4)) shapeCasts_S64_S1x64) (shapeCast S100000x1 (dinv (m ((c : Thread nD τ).loc main_arg1))) shapeCasts_S100000_S100000x1) (m ((c : Thread nD τ).loc main_arg5)))) (shapeCast S1x64 (m ((c : Thread nD τ).loc main_arg6)) shapeCasts_S64_S1x64) (shapeCast S100000x1 (dinv (m ((c : Thread nD τ).loc main_arg1))) shapeCasts_S100000_S100000x1) := by
  refine (W8_arr m ρ c 3).trans ((Cert.KernelIdeal.ClampedAffine.final (V7 m ρ) c).trans ?_)
  show clampedAffine (W7 m ρ c (Proc.devRef .tc main_v38)) (W7 m ρ c (Proc.devRef .tc main_v39)) (W7 m ρ c (Proc.devRef .tc main_v15)) = _
  rw [W7_v38, W7_v39, W7_v15]
theorem W8_arg2 : W8 m ρ c (Proc.devRef .tc main_arg2) = (m ((c : Thread nD τ).loc main_arg2)) :=
  (W8_of_ne m ρ c main_arg2 (by decide)).trans (W7_arg2 m ρ c)
theorem W8_arg7 : W8 m ρ c (Proc.devRef .tc main_arg7) = (m ((c : Thread nD τ).loc main_arg7)) :=
  (W8_of_ne m ρ c main_arg7 (by decide)).trans (W7_arg7 m ρ c)
theorem W8_arg8 : W8 m ρ c (Proc.devRef .tc main_arg8) = (m ((c : Thread nD τ).loc main_arg8)) :=
  (W8_of_ne m ρ c main_arg8 (by decide)).trans (W7_arg8 m ρ c)

/-- The mean of the second layer's output over each graph's nodes. -/
theorem W9_v52 : W9 m ρ c (Proc.devRef .tc main_v52) = pool (m ((c : Thread nD τ).loc main_arg2)) (clampedAffine (edgeSum (m ((c : Thread nD τ).loc main_arg1)) (hiddenProduct (edgeSum (m ((c : Thread nD τ).loc main_arg1)) (scaledProduct (m ((c : Thread nD τ).loc main_arg0)) (m ((c : Thread nD τ).loc main_arg3)) (shapeCast S100000x1 (dinv (m ((c : Thread nD τ).loc main_arg1))) shapeCasts_S100000_S100000x1))) (shapeCast S1x64 (m ((c : Thread nD τ).loc main_arg4)) shapeCasts_S64_S1x64) (shapeCast S100000x1 (dinv (m ((c : Thread nD τ).loc main_arg1))) shapeCasts_S100000_S100000x1) (m ((c : Thread nD τ).loc main_arg5)))) (shapeCast S1x64 (m ((c : Thread nD τ).loc main_arg6)) shapeCasts_S64_S1x64) (shapeCast S100000x1 (dinv (m ((c : Thread nD τ).loc main_arg1))) shapeCasts_S100000_S100000x1)) := by
  have h : W9 m ρ c (Proc.devRef .tc main_v52) = pool (W8 m ρ c (Proc.devRef .tc main_arg2)) (W8 m ρ c (Proc.devRef .tc main_v40)) := by
    show StableHlo.after hostOps3 (W8 m ρ c) _ = _
    after_results_simp <;> rfl
  rw [h, W8_arg2, W8_v40]
/-- The head's bias as a `[1, 1]` array. -/
theorem W9_v53 : W9 m ρ c (Proc.devRef .tc main_v53) = shapeCast S1x1 (m ((c : Thread nD τ).loc main_arg8)) shapeCasts_S1_S1x1 := by
  show StableHlo.after hostOps3 (W8 m ρ c) _ = _
  after_results
  rw [W8_arg8]
  rfl
theorem W9_arg7 : W9 m ρ c (Proc.devRef .tc main_arg7) = (m ((c : Thread nD τ).loc main_arg7)) := by
  show StableHlo.after hostOps3 (W8 m ρ c) _ = _
  after_results
  exact W8_arg7 m ρ c

/-- THE RESULT: the program's result buffer after the run, as one term of the nine argument arrays. -/
theorem result : W10 m ρ c (Proc.devRef .tc main_v54) = head (pool (m ((c : Thread nD τ).loc main_arg2)) (clampedAffine (edgeSum (m ((c : Thread nD τ).loc main_arg1)) (hiddenProduct (edgeSum (m ((c : Thread nD τ).loc main_arg1)) (scaledProduct (m ((c : Thread nD τ).loc main_arg0)) (m ((c : Thread nD τ).loc main_arg3)) (shapeCast S100000x1 (dinv (m ((c : Thread nD τ).loc main_arg1))) shapeCasts_S100000_S100000x1))) (shapeCast S1x64 (m ((c : Thread nD τ).loc main_arg4)) shapeCasts_S64_S1x64) (shapeCast S100000x1 (dinv (m ((c : Thread nD τ).loc main_arg1))) shapeCasts_S100000_S100000x1) (m ((c : Thread nD τ).loc main_arg5)))) (shapeCast S1x64 (m ((c : Thread nD τ).loc main_arg6)) shapeCasts_S64_S1x64) (shapeCast S100000x1 (dinv (m ((c : Thread nD τ).loc main_arg1))) shapeCasts_S100000_S100000x1))) (m ((c : Thread nD τ).loc main_arg7)) (shapeCast S1x1 (m ((c : Thread nD τ).loc main_arg8)) shapeCasts_S1_S1x1) := by
  refine (W10_arr m ρ c 3).trans ((Cert.KernelIdeal.Head.final (V9 m ρ) c).trans ?_)
  show head (W9 m ρ c (Proc.devRef .tc main_v52)) (W9 m ρ c (Proc.devRef .tc main_arg7)) (W9 m ρ c (Proc.devRef .tc main_v53)) = _
  rw [W9_v52, W9_arg7, W9_v53]

end Cert.KernelIdeal.Fold

end
-- ==== Proof.RefValue.lean ====
/-
  The reference program's result, read back through its run: the run's composed term of the nine argument arrays is the
  network with the weights applied per edge (`refOut`) — the same operations in the same order, with the edge endpoints,
  the degrees, the node weights and the edge weights named where the composed term repeats them.
-/
import proofs.«155471_j77704548319407_2_alg».proof.Proof.RefRun
import proofs.«155471_j77704548319407_2_alg».proof.Proof.Spec

noncomputable section

namespace Cert.ReferenceIdeal.RefValue

open Cert.ReferenceIdeal Cert.ReferenceIdeal.Gen Idealize.ShloMosaic Idealize.ShloMosaic.TcCoe Idealize.SL.Sem

set_option maxRecDepth 8192 in
/-- The run's result term is `refOut` of the arguments. -/
theorem result (m : (ℓ : Loc nD τ sig) → Buf (Elt Ideal) ℓ) (c : Dev nD) :
    Cert.ReferenceIdeal.ValueP.res_main_v82 (F := Ideal) m c
      = Cert.Gcn.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v82 Cert.Gcn.refOut Cert.Gcn.pool Cert.Gcn.refLayer Cert.Gcn.norm Cert.Gcn.wrap
    Cert.Gcn.dinv Cert.Gcn.deg Cert.Gcn.src Cert.Gcn.dst
  rfl

end Cert.ReferenceIdeal.RefValue

end
-- ==== Proof.LibRowGather.lean ====
/-
  `stablehlo.gather` of WHOLE ROWS of a matrix, read at an index.

  What `x[idx]` lowers to for a matrix `x : [N, C]` and an integer array `idx` of row numbers: a gather whose one offset
  axis is the result's last axis, with collapsed_slice_dims `[0]`, start_index_map `[0]`, slice_sizes `[1, C]` and the
  index vector on the start indices' last axis, of extent one. The operand has two axes. Axis 0 is collapsed and named by
  the start index map: its coordinate is the start index, read as a signed integer and clamped into `[0, N − 1]` (the
  clamp that makes the one-row slice fit), with no batching and no offset part. Axis 1 is the one offset axis: it is not
  in the start index map, so its slice starts at `0`, it is not a batching axis, and its offset coordinate is the
  result's coordinate on the offset axis, that is the result's last coordinate. So result element `(…, k)` is `x` at the
  clamped row and column `k`. Stated for start indices `[R, 1]` with result `[R, C]` (`rowsDims`, `gather_rows_apply`)
  and for start indices `[P, A, 1]` with result `[P, A, C]` (`rowsDims3`, `gather_rows3_apply`).
-/
import Idealize.ShloMosaic.PureOps.Ideal
import Idealize.ShloMosaic.Lib.ValueIdx

noncomputable section

namespace Idealize.ShloMosaic.RowGather

open Idealize.ShloMosaic Idealize.ShloMosaic.ValueIdx

/-- The dimension numbers of a gather of whole rows, for an operand `[N, C]`, start indices `[R, 1]` and result `[R, C]`:
    the result's axis 1 is the offset axis, the operand's axis 0 is collapsed and is the one axis the start index names,
    the index vector is the start indices' axis 1, and a slice is one row, `[1, C]`. Their conditions `wf` are decided on
    a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(r, k)`: the operand at the row `idx[r, 0]`, read signed and clamped into `[0, N − 1]`,
    and column `k`. On the operand's axis 0 the start is the clamped index and the batching and offset parts are zero; on
    its axis 1 the start and the batching part are zero and the offset part is the result's coordinate `k`. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k)
      = x (ix2 (⟨min (idx (ix2 r (0 : Fin 1))).toInt.toNat (N - 1), by omega⟩ : Fin N) k) := by
  unfold Host.gather
  congr 1
  funext a
  refine Fin.ext ?_
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r k) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r k) idx 1 + (rowsDims N C R wf).batchCoord (ix2 r k) 1
      + (rowsDims N C R wf).offCoord (ix2 r k) 1 = k.val
    have hstart : (rowsDims N C R wf).start (ix2 r k) idx 1 = 0 := by
      unfold GatherDims.start
      rw [dif_neg (show (1 : Fin 2) ∉ (rowsDims N C R wf).startIndexMap from
        fun h => absurd (List.mem_singleton.mp h) (show ¬ ((1 : Fin 2) = 0) by decide))]
    have hbatch : (rowsDims N C R wf).batchCoord (ix2 r k) 1 = 0 :=
      GatherDims.batchCoord_eq_zero _ _ _ List.not_mem_nil
    have hoff : (rowsDims N C R wf).offCoord (ix2 r k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

/-- The dimension numbers of a gather of whole rows, for an operand `[N, C]`, start indices `[P, A, 1]` and result
    `[P, A, C]`: the result's axis 2 is the offset axis, the operand's axis 0 is collapsed and is the one axis the start
    index names, the index vector is the start indices' axis 2, and a slice is one row, `[1, C]`. Their conditions `wf`
    are decided on a program's literal shapes. -/
abbrev rowsDims3 (N C P A : Nat)
    (wf : GatherDims.WF ⟨2, ![N, C]⟩ ⟨3, ![P, A, 1]⟩ ⟨3, ![P, A, C]⟩ [2] [0] [] [0] [] 2 ![1, C]) :
    GatherDims ⟨2, ![N, C]⟩ ⟨3, ![P, A, 1]⟩ ⟨3, ![P, A, C]⟩ where
  offsetDims := [2]
  collapsedSliceDims := [0]
  operandBatchingDims := []
  startIndicesBatchingDims := []
  startIndexMap := [0]
  indexVectorDim := 2
  sliceSizes := ![1, C]
  wf := wf

/-- THE GATHER OF ROWS READ AT `(p, a, k)`: the operand at the row `idx[p, a, 0]`, read signed and clamped into
    `[0, N − 1]`, and column `k`. -/
theorem gather_rows3_apply {α : Type} {N C P A w : Nat} (hN : 0 < N)
    (wf : GatherDims.WF ⟨2, ![N, C]⟩ ⟨3, ![P, A, 1]⟩ ⟨3, ![P, A, C]⟩ [2] [0] [] [0] [] 2 ![1, C])
    (x : (⟨2, ![N, C]⟩ : Shape).Idx → α) (idx : IVec ⟨3, ![P, A, 1]⟩ w) (p : Fin P) (a : Fin A) (k : Fin C) :
    Host.gather (rowsDims3 N C P A wf) x idx (ix3 p a k)
      = x (ix2 (⟨min (idx (ix3 p a (0 : Fin 1))).toInt.toNat (N - 1), by omega⟩ : Fin N) k) := by
  unfold Host.gather
  congr 1
  funext c
  refine Fin.ext ?_
  match c with
  | ⟨0, _⟩ =>
    show (rowsDims3 N C P A wf).start (ix3 p a k) idx 0 + (rowsDims3 N C P A wf).batchCoord (ix3 p a k) 0
      + (rowsDims3 N C P A wf).offCoord (ix3 p a k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N C P A wf).startIndexMap from List.mem_singleton.mpr rfl)]
    have hsi : (rowsDims3 N C P A wf).siIdx (ix3 p a k) ⟨List.idxOf (0 : Fin 2) (rowsDims3 N C P A wf).startIndexMap,
        List.idxOf_lt_length_iff.2 (List.mem_singleton.mpr rfl)⟩ = ix3 p a (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims3 N C P A wf).start (ix3 p a k) idx 1 + (rowsDims3 N C P A wf).batchCoord (ix3 p a k) 1
      + (rowsDims3 N C P A wf).offCoord (ix3 p a k) 1 = k.val
    have hstart : (rowsDims3 N C P A wf).start (ix3 p a k) idx 1 = 0 := by
      unfold GatherDims.start
      rw [dif_neg (show (1 : Fin 2) ∉ (rowsDims3 N C P A wf).startIndexMap from
        fun h => absurd (List.mem_singleton.mp h) (show ¬ ((1 : Fin 2) = 0) by decide))]
    have hbatch : (rowsDims3 N C P A wf).batchCoord (ix3 p a k) 1 = 0 :=
      GatherDims.batchCoord_eq_zero _ _ _ List.not_mem_nil
    have hoff : (rowsDims3 N C P A wf).offCoord (ix3 p a k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

end Idealize.ShloMosaic.RowGather

end
-- ==== Proof.LibGcnAggregate.lean ====
/-
  Scaling a segment sum of gathered rows by a per-node factor, before or after the sum.

  Nodes are numbered 0 … N − 1 and carry a weight `dis i` that is a nonnegative REAL (as an extended real: `0 ≤ dis i`,
  `dis i ≠ ⊤`).  Edge `e` (of R edges) is aggregated at node `row e` and gathers from node `col e`.  For features
  `h : [N, C]` the two arrangements

      agg₁[i, f] = ∑ over the edges e with row e = i of (dis[row e] · dis[col e]) · h[col e, f]      (weights per edge)
      agg₂[i, f] = dis[i] · ∑ over the edges e with row e = i of (dis · h)[col e, f]                 (weights per node)

  are equal entry by entry WHATEVER `h` holds, infinities included: on the edges of segment `i` the first factor
  `dis[row e]` is the constant `dis[i]`, multiplication of extended reals is associative, and a nonnegative finite factor
  distributes over every finite sum of extended reals.  The statement is over the host's operations: an accumulating
  scatter of whole rows (an update whose start index is outside `[0, N)` is dropped; the index is read signed and not
  clamped), gathers of whole rows and of single entries (the index read signed and CLAMPED into `[0, N − 1]`), and the
  "negative index counts from the end" select in front of a gather, which is the identity on the nonnegative indices a
  segment's edges have.

  Also here: the guarded reciprocal square root `if d > 0 then d^(-1/2) else 0` is a nonnegative real for every
  extended real `d` (`⊤ ↦ 0`), which is what makes `dis` such a weight with no assumption on the degrees.
-/
import Idealize.ShloMosaic.PureOps.Ideal
import Idealize.ShloMosaic.PureOps.Ideal.Laws
import Idealize.ShloMosaic.Lib.ValueIdx
import Idealize.ShloMosaic.Lib.Pipeline.Value
import proofs.«155471_j77704548319407_2_alg».proof.Proof.LibRowGather
import proofs.«155471_j77704548319407_2_alg».proof.Proof.LibRowMax

noncomputable section

namespace Cert.LibGcnAggregate

open Idealize.ShloMosaic Idealize.ShloMosaic.ValueIdx

/-! ## Extended reals -/

/-- A nonnegative finite factor distributes over a finite sum of extended reals, whatever the summands. -/
theorem mul_sum_of_nonneg {ι : Type} (s : Finset ι) (f : ι → EReal) {c : EReal} (hc : 0 ≤ c) (hc' : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- `if d > 0 then d^(-1/2) else 0` is a nonnegative real, for every extended real `d`. -/
theorem rsqrt_guard (d : EReal) :
    (0 : EReal) ≤ Scalar.select (Ideal.cmp .ogt d 0) (Ideal.rsqrt d) 0
      ∧ Scalar.select (Ideal.cmp .ogt d 0) (Ideal.rsqrt d) (0 : EReal) ≠ ⊤ := by
  show (0 : EReal) ≤ (if BitVec.ofBool (decide ((0 : EReal) < d)) = 1 then Ideal.rsqrt d else 0)
      ∧ (if BitVec.ofBool (decide ((0 : EReal) < d)) = 1 then Ideal.rsqrt d else (0 : EReal)) ≠ ⊤
  by_cases h : (0 : EReal) < d
  · have h1 : BitVec.ofBool (decide ((0 : EReal) < d)) = 1 := by simp [h]
    rw [if_pos h1]
    induction d using EReal.rec with
    | bot => exact absurd h (by simp)
    | top => exact ⟨by rw [Ideal.rsqrt_top], by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h0 : ¬ BitVec.ofBool (decide ((0 : EReal) < d)) = 1 := by simp [h]
    rw [if_neg h0]
    exact ⟨le_refl _, EReal.zero_ne_top⟩

/-- The host's guarded reciprocal square root of an array, `where(deg > 0, rsqrt(deg), 0)`, is a nonnegative real at
    every index. -/
theorem guarded_rsqrt_weight {s : Shape} (deg z : FVec Ideal s .f32) (hz : ∀ i, z i = 0) (i : s.Idx) :
    0 ≤ select (cmpf .ogt deg z) (Host.rsqrt deg) z i ∧ select (cmpf .ogt deg z) (Host.rsqrt deg) z i ≠ ⊤ := by
  show (0 : EReal) ≤ Scalar.select (Ideal.cmp .ogt (deg i) (z i)) (Ideal.rsqrt (deg i)) (z i)
      ∧ Scalar.select (Ideal.cmp .ogt (deg i) (z i)) (Ideal.rsqrt (deg i)) (z i) ≠ ⊤
  rw [hz i]
  exact rsqrt_guard _

/-! ## The host's layout operations read at an index -/

variable {α : Type}

/-- An `[a]` vector placed as the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a]` vector as a column across `b` lanes reads, at `(p, q)`, the vector at `p`. -/
theorem column_apply {a b : ℕ} (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 x) (ix2 p q) = x (ix1 p) :=
  (Cert.LibRowMax.broadcastInDim_a1_ab_apply _ h2 p q).trans (broadcastInDim_a_a1_apply x h1 p 0)

/-! ## A gather of single entries of a vector -/

/-- The dimension numbers of `x[idx]` for a vector `x : [N]` and start indices `[R, 1]`, result `[R]`: no offset
    axis, the operand's one axis collapsed and named by the start index. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather of entries read at `r`: the vector at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (entriesDims N R wf).start (ix1 r) idx 0 + (entriesDims N R wf).batchCoord (ix1 r) 0
      + (entriesDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N R wf).startIndexMap from List.mem_singleton.mpr rfl)]
    have hsi : (entriesDims N R wf).siIdx (ix1 r) ⟨List.idxOf (0 : Fin 1) (entriesDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## An accumulating scatter of whole rows -/

/-- The dimension numbers of `zeros([N, C]).at[idx].add(updates)` for start indices `[R, 1]` and updates `[R, C]`: the
    updates' axis 1 is the window axis, the operand's axis 0 is inserted and is the one axis the start index names. -/
abbrev rowsScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update row `e` that lands on the operand's row `t 0` has start index `t 0`, read signed. -/
theorem scatter_rows_hit {N C R w : Nat} (wf : ScatterDims.WF ⟨2, ![N, C]⟩ ⟨2, ![R, 1]⟩ ⟨2, ![R, C]⟩ [1] [0] [0] 1)
    (idx : IVec ⟨2, ![R, 1]⟩ w) (e : Fin R) (f : Fin C) (t : (⟨2, ![N, C]⟩ : Shape).Idx)
    (h : (rowsScatter N C R wf).resultIdx? (ix2 e f) idx = some t) :
    (idx (ix2 e (0 : Fin 1))).toInt = ((t 0).val : ℤ) := by
  have hs : (rowsScatter N C R wf).start (ix2 e f) idx 0 = (idx (ix2 e (0 : Fin 1))).toInt := by
    unfold ScatterDims.start
    rw [dif_pos (show (0 : Fin 2) ∈ (rowsScatter N C R wf).scatterDimsToOperandDims from List.mem_singleton.mpr rfl)]
    have hsi : (rowsScatter N C R wf).siIdx (ix2 e f) ⟨List.idxOf (0 : Fin 2) (rowsScatter N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowsScatter N C R wf).window (ix2 e f) 0 = 0 := by
    unfold ScatterDims.window
    rw [dif_neg]
    intro hmem
    have := (List.mem_filter.mp hmem).2
    simp at this
  unfold ScatterDims.resultIdx? at h
  split at h
  · rename_i hall
    have ht := Option.some.inj h
    have h0 : ((rowsScatter N C R wf).start (ix2 e f) idx 0 + ((rowsScatter N C R wf).window (ix2 e f) 0 : ℤ)).toNat
        = (t 0).val := congrArg Fin.val (congrFun ht 0)
    have hpos := (hall 0).1
    rw [hs, hw] at h0 hpos
    omega
  · exact absurd h (by simp)

/-- An accumulating scatter into zeros, entry `t`: if every update that lands on `t` is `c` times the matching update
    of a second scatter, `c` a nonnegative real, then the entry is `c` times the second scatter's entry. -/
theorem scatterAdd_scaled {s si su : Shape} (d : ScatterDims s si su) {w : Nat} (idx : IVec si w)
    (A B : su.Idx → EReal) (t : s.Idx) {c : EReal} (hc : 0 ≤ c) (hc' : c ≠ ⊤)
    (hAB : ∀ u, d.resultIdx? u idx = some t → A u = c * B u) :
    Ideal.hostScatterAdd d (fun _ => 0) idx A t = c * Ideal.hostScatterAdd d (fun _ => 0) idx B t := by
  unfold Ideal.hostScatterAdd
  rw [zero_add, zero_add, mul_sum_of_nonneg _ _ hc hc']
  exact Finset.sum_congr rfl fun u hu => hAB u (Finset.mem_filter.mp hu).2

/-- A start index that is a node number, read signed and clamped into `[0, N − 1]`, is that node. -/
theorem clamp_eq {N : ℕ} (b : BitVec 32) (i : Fin N) (hb : b.toInt = (i.val : ℤ))
    (hlt : min b.toInt.toNat (N - 1) < N) : (⟨min b.toInt.toNat (N - 1), hlt⟩ : Fin N) = i := by
  apply Fin.ext
  show min b.toInt.toNat (N - 1) = i.val
  rw [hb]
  have := i.isLt
  omega

/-! ## The two arrangements of the aggregation -/

section Aggregate

variable {N C R : ℕ}

/-- THE AGGREGATION, WEIGHTED PER EDGE OR PER NODE.  `dis` a nonnegative real weight per node; `row` the node each edge
    is aggregated at (used as it is by the scatter; in front of the gather of `dis` it passes the select that replaces
    a negative index by `X`, which no edge of a segment meets); `colw` the start indices every gather by column uses.
    Scattering the rows `(dis[row e] · dis[col e]) · h[col e, ·]` is, entry by entry, `dis[i]` times scattering the rows
    `(dis · h)[col e, ·]`. -/
theorem aggregate_eq (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (hb0 : (⟨0, ![]⟩ : Shape).BroadcastsInDim ⟨2, ![N, C]⟩ ![])
    (hbz : (⟨0, ![]⟩ : Shape).BroadcastsInDim ⟨1, ![R]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (hbN : (⟨1, ![N]⟩ : Shape).BroadcastsInDim ⟨2, ![N, 1]⟩ ![0])
    (hbNC : (⟨2, ![N, 1]⟩ : Shape).BroadcastsInDim ⟨2, ![N, C]⟩ ![0, 1])
    (dis : FVec Ideal ⟨1, ![N]⟩ .f32) (hdis : ∀ i, 0 ≤ dis i ∧ dis i ≠ ⊤)
    (row X : IVec ⟨1, ![R]⟩ 32) (colw : IVec ⟨2, ![R, 1]⟩ 32) (h : FVec Ideal ⟨2, ![N, C]⟩ .f32) :
    Host.scatterAdd (F := Ideal) (rowsScatter N C R wfs)
        (broadcastInDim ⟨2, ![N, C]⟩ ![] hb0 (constant ⟨0, ![]⟩ .f32 0x00000000#32))
        (broadcastInDim ⟨2, ![R, 1]⟩ ![0] hbR row)
        (mulf
          (broadcastInDim ⟨2, ![R, C]⟩ ![0, 1] hbRC
            (broadcastInDim ⟨2, ![R, 1]⟩ ![0] hbR
              (mulf
                (Host.gather (entriesDims N R wfe) dis
                  (broadcastInDim ⟨2, ![R, 1]⟩ ![0] hbR
                    (select (cmpi .slt row (broadcastInDim ⟨1, ![R]⟩ ![] hbz (constantI ⟨0, ![]⟩ 32 0#32))) X row)))
                (Host.gather (entriesDims N R wfe) dis colw))))
          (Host.gather (Idealize.ShloMosaic.RowGather.rowsDims N C R wfg) h colw))
      = mulf (broadcastInDim ⟨2, ![N, C]⟩ ![0, 1] hbNC (broadcastInDim ⟨2, ![N, 1]⟩ ![0] hbN dis))
          (Host.scatterAdd (F := Ideal) (rowsScatter N C R wfs)
            (broadcastInDim ⟨2, ![N, C]⟩ ![] hb0 (constant ⟨0, ![]⟩ .f32 0x00000000#32))
            (broadcastInDim ⟨2, ![R, 1]⟩ ![0] hbR row)
            (Host.gather (Idealize.ShloMosaic.RowGather.rowsDims N C R wfg)
              (mulf (broadcastInDim ⟨2, ![N, C]⟩ ![0, 1] hbNC (broadcastInDim ⟨2, ![N, 1]⟩ ![0] hbN dis)) h) colw)) := by
  funext j
  obtain ⟨i, f, rfl⟩ : ∃ (i : Fin N) (f : Fin C), j = ix2 i f := ⟨j 0, j 1, eq_ix2 j⟩
  have hz : (broadcastInDim ⟨2, ![N, C]⟩ ![] hb0 (constant (F := Ideal) ⟨0, ![]⟩ .f32 0x00000000#32))
      = fun _ => (0 : EReal) := funext fun _ => Ideal.ofBits_zero_f32
  rw [hz]
  show Ideal.hostScatterAdd (rowsScatter N C R wfs) (fun _ => 0) _ _ (ix2 i f)
    = (broadcastInDim ⟨2, ![N, C]⟩ ![0, 1] hbNC (broadcastInDim ⟨2, ![N, 1]⟩ ![0] hbN dis)) (ix2 i f)
      * Ideal.hostScatterAdd (rowsScatter N C R wfs) (fun _ => 0) _ _ (ix2 i f)
  rw [column_apply dis hbN hbNC i f]
  refine scatterAdd_scaled _ _ _ _ _ (hdis _).1 (hdis _).2 fun u hu => ?_
  obtain ⟨e, g, rfl⟩ : ∃ (e : Fin R) (g : Fin C), u = ix2 e g := ⟨u 0, u 1, eq_ix2 u⟩
  -- the segment's node is the edge's row, read signed
  have hrow : (row (ix1 e)).toInt = (i.val : ℤ) := by
    have := scatter_rows_hit wfs _ e g _ hu
    rwa [broadcastInDim_a_a1_apply row hbR e 0] at this
  -- so the negative-index select keeps it, and the clamp keeps it
  have hsel : (select (cmpi .slt row (broadcastInDim ⟨1, ![R]⟩ ![] hbz (constantI ⟨0, ![]⟩ 32 0#32))) X row) (ix1 e)
      = row (ix1 e) := by
    show Scalar.select (BitVec.ofBool ((row (ix1 e)).slt 0#32)) (X (ix1 e)) (row (ix1 e)) = row (ix1 e)
    have hns : (row (ix1 e)).slt 0#32 = false := by
      rw [BitVec.slt_eq_decide, BitVec.toInt_zero, hrow]
      exact decide_eq_false (by omega)
    rw [hns]
    rfl
  show _ * _ = _ * _
  rw [Cert.LibRowMax.broadcastInDim_a1_ab_apply _ hbRC e g, broadcastInDim_a_a1_apply _ hbR e 0,
    Idealize.ShloMosaic.RowGather.gather_rows_apply hN wfg h colw e g,
    Idealize.ShloMosaic.RowGather.gather_rows_apply hN wfg _ colw e g]
  show (_ * _) * _ = _ * (_ * _)
  rw [gather_entries_apply hN wfe dis _ e, gather_entries_apply hN wfe dis colw e, column_apply dis hbN hbNC]
  have hval : ((broadcastInDim ⟨2, ![R, 1]⟩ ![0] hbR
      (select (cmpi .slt row (broadcastInDim ⟨1, ![R]⟩ ![] hbz (constantI ⟨0, ![]⟩ 32 0#32))) X row))
        (ix2 e (0 : Fin 1))).toInt = (i.val : ℤ) := by
    rw [broadcastInDim_a_a1_apply _ hbR e 0, hsel]; exact hrow
  rw [clamp_eq _ i hval]
  exact mul_assoc _ _ _

end Aggregate

end Cert.LibGcnAggregate

end
-- ==== Proof.LibSegmentScale.lean ====
/-
  Scaling a segment sum of gathered rows by a per-node factor, before the gather or per edge — the arrangement in which
  the per-edge weight multiplies the gathered row from the RIGHT and is the product (weight of the start node) · (weight
  of the end node), in that order.

  Nodes 0 … N − 1 carry a weight `dis i` that is a nonnegative REAL. Edge e (of R) is aggregated at node `row e` (the
  scatter's start index, read signed, an update outside [0, N) dropped) and gathers rows at the start indices `colw`
  (read signed and clamped into [0, N − 1]); the end node's weight is gathered at start indices `roww` of which only
  this is used: on an edge aggregated at node i they name i. For features h : [N, C], entry by entry and whatever h
  holds (infinities included),

      Σ over the edges e aggregated at i of  h[colw e, f] · (dis[colw e] · dis[roww e])
        =  dis[i] · Σ over the same edges of  (h · dis)[colw e, f] :

  on those edges dis[roww e] is the constant dis[i], the product of extended reals is commutative and associative, and
  a nonnegative finite factor distributes over every finite sum of extended reals.
-/
import proofs.«155471_j77704548319407_2_alg».proof.Proof.LibGcnAggregate
import proofs.«155471_j77704548319407_2_alg».proof.Proof.LibRowMax
import Idealize.ShloMosaic.Lib.ValueLayout

noncomputable section

namespace Cert.LibSegmentScale

open Idealize.ShloMosaic Idealize.ShloMosaic.ValueIdx Cert.LibGcnAggregate

section Segment

variable {N C R : ℕ}

/-- THE SEGMENT LAW. `dis` a nonnegative real weight per node; `row` the node each edge is aggregated at, as the scatter
    reads it; `colw` the start indices every gather by start node uses; `roww` the start indices the gather of the end
    node's weight uses, which on an edge aggregated at node `i` name `i` itself (`hroww`). At node `i`, feature `f`, the
    sum of the gathered rows weighted per edge by `dis[start] · dis[end]` is `dis[i]` times the sum of the rows scaled by
    `dis` before the gather. -/
theorem segment_law (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (hb0 : (⟨0, ![]⟩ : Shape).BroadcastsInDim ⟨2, ![N, C]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (dis : FVec Ideal ⟨1, ![N]⟩ .f32) (hdis : ∀ i, 0 ≤ dis i ∧ dis i ≠ ⊤)
    (row : IVec ⟨1, ![R]⟩ 32) (colw roww : IVec ⟨2, ![R, 1]⟩ 32)
    (hroww : ∀ (e : Fin R) (i : Fin N), (row (ix1 e)).toInt = (i.val : ℤ) → (roww (ix2 e (0 : Fin 1))).toInt = (i.val : ℤ))
    (h : FVec Ideal ⟨2, ![N, C]⟩ .f32) (i : Fin N) (f : Fin C) :
    Host.scatterAdd (F := Ideal) (rowsScatter N C R wfs)
        (broadcastInDim ⟨2, ![N, C]⟩ ![] hb0 (constant ⟨0, ![]⟩ .f32 0x00000000#32))
        (broadcastInDim ⟨2, ![R, 1]⟩ ![0] hbR row)
        (mulf (Host.gather (Idealize.ShloMosaic.RowGather.rowsDims N C R wfg) h colw)
          (broadcastInDim ⟨2, ![R, C]⟩ ![0, 1] hbRC
            (broadcastInDim ⟨2, ![R, 1]⟩ ![0] hbR
              (mulf (Host.gather (entriesDims N R wfe) dis colw) (Host.gather (entriesDims N R wfe) dis roww))))) (ix2 i f)
      = dis (ix1 i) * Host.scatterAdd (F := Ideal) (rowsScatter N C R wfs)
          (broadcastInDim ⟨2, ![N, C]⟩ ![] hb0 (constant ⟨0, ![]⟩ .f32 0x00000000#32))
          (broadcastInDim ⟨2, ![R, 1]⟩ ![0] hbR row)
          (Host.gather (Idealize.ShloMosaic.RowGather.rowsDims N C R wfg) (fun j => h j * dis (ix1 (j 0))) colw) (ix2 i f) := by
  have hzero : (broadcastInDim ⟨2, ![N, C]⟩ ![] hb0 (constant (F := Ideal) ⟨0, ![]⟩ .f32 0x00000000#32))
      = fun _ => (0 : EReal) := funext fun _ => Ideal.ofBits_zero_f32
  rw [hzero]
  show Ideal.hostScatterAdd (rowsScatter N C R wfs) (fun _ => 0) _ _ (ix2 i f)
    = dis (ix1 i) * Ideal.hostScatterAdd (rowsScatter N C R wfs) (fun _ => 0) _ _ (ix2 i f)
  refine scatterAdd_scaled _ _ _ _ _ (hdis _).1 (hdis _).2 fun u hu => ?_
  obtain ⟨e, g, rfl⟩ : ∃ (e : Fin R) (g : Fin C), u = ix2 e g := ⟨u 0, u 1, eq_ix2 u⟩
  -- the segment's node is the edge's end node, read signed
  have hrow : (row (ix1 e)).toInt = (i.val : ℤ) := by
    have := scatter_rows_hit wfs _ e g _ hu
    rw [broadcastInDim_a_a1_apply row hbR e 0] at this
    exact this
  have hval : (roww (ix2 e (0 : Fin 1))).toInt = (i.val : ℤ) := hroww e i hrow
  -- the gathers, each at its clamped start index
  show _ * _ = _ * _
  rw [Idealize.ShloMosaic.RowGather.gather_rows_apply hN wfg h colw e g,
    Idealize.ShloMosaic.RowGather.gather_rows_apply hN wfg (fun j => h j * dis (ix1 (j 0))) colw e g,
    Cert.LibRowMax.broadcastInDim_a1_ab_apply _ hbRC e g, broadcastInDim_a_a1_apply _ hbR e 0]
  show _ * (_ * _) = _ * (_ * _)
  rw [gather_entries_apply hN wfe dis colw e, gather_entries_apply hN wfe dis roww e, clamp_eq _ i hval]
  show _ * (_ * dis (ix1 i)) = dis (ix1 i) * (_ * _)
  rw [mul_comm (dis (ix1 i)), mul_assoc]
  rfl

end Segment

end Cert.LibSegmentScale

end
-- ==== Proof.GcnLaw.lean ====
/-
  The two arrangements of the network compute the same arrays, on the extended reals.

  The one law that joins them is about a single segment. Fix a node i and a feature f. Every edge e aggregated at i has
  dst e = i, so its per-edge weight dinv[src e] · dinv[dst e] is dinv[src e] · dinv[i], and

      Σ_e h[src e, f] · (dinv[src e] · dinv[i])  =  dinv[i] · Σ_e (h[src e, f] · dinv[src e])

  by commutativity and associativity of the product of extended reals and because dinv[i], a NONNEGATIVE REAL, distributes
  over every finite sum of extended reals, whatever the summands (the guarded reciprocal square root is such a number
  for every degree, ⊤ included). No finiteness of the features is used. The index an edge gathers by passes a "negative
  counts from the end" select and a clamp into [0, 100000); on an edge of segment i the end node's index is i itself, which
  both leave alone; the start node's index is whatever it is, the same on both sides.

  Around that law: the feature products fused with the scaling are the host's products scaled row by row, the fused
  clamp-and-bias is the host's, and the head is the host's product plus bias read through a column-to-vector cast.
-/
import proofs.«155471_j77704548319407_2_alg».proof.Proof.Spec
import proofs.«155471_j77704548319407_2_alg».proof.Proof.LibGcnAggregate
import proofs.«155471_j77704548319407_2_alg».proof.Proof.LibSegmentScale
import proofs.«155471_j77704548319407_2_alg».proof.Proof.LibRowMax
import proofs.«155471_j77704548319407_2_alg».proof.Proof.LibColumn
import Idealize.ShloMosaic.Lib.ValueLayout

noncomputable section

namespace Cert.Gcn

open Cert.ReferenceIdeal Cert.ReferenceIdeal.Gen Idealize.ShloMosaic Idealize.ShloMosaic.ValueIdx Cert.LibGcnAggregate

/-- Every node weight is a nonnegative real. -/
theorem dinv_weight (ei : IVec S2x1600000 32) (i : S100000.Idx) : 0 ≤ dinv ei i ∧ dinv ei i ≠ ⊤ :=
  guarded_rsqrt_weight (deg ei) (broadcastInDim S100000 ![] bcast_S_S100000 (constant (F := Ideal) S_ .f32 0x00000000#32))
    (fun _ => Ideal.ofBits_zero_f32) i

/-! The printed dimension records are the generic ones of whole-row scatters and gathers and of plain products. -/

theorem rec_scatter : scatter_S100000x64_S1700000x1_S1700000x64_1_0_0_1
    = rowsScatter 100000 64 1700000 scatter_S100000x64_S1700000x1_S1700000x64_1_0_0_1.wf := rfl
theorem rec_rows : gather_S100000x64_S1700000x1_S1700000x64_1_0_n_n_0_1_164
    = Idealize.ShloMosaic.RowGather.rowsDims 100000 64 1700000 gather_S100000x64_S1700000x1_S1700000x64_1_0_n_n_0_1_164.wf := rfl
theorem rec_entries : gather_S100000_S1700000x1_S1700000_n_0_n_n_0_1_1
    = entriesDims 100000 1700000 gather_S100000_S1700000x1_S1700000_n_0_n_n_0_1_1.wf := rfl
theorem rec_dot1 : dot_S100000x128_S128x64_S100000x64_1_0_0_1_n_n
    = Cert.LibRowMax.plainDims 100000 128 64 dot_S100000x128_S128x64_S100000x64_1_0_0_1_n_n.wf := rfl
theorem rec_dot2 : dot_S100000x64_S64x64_S100000x64_1_0_0_1_n_n
    = Cert.LibRowMax.plainDims 100000 64 64 dot_S100000x64_S64x64_S100000x64_1_0_0_1_n_n.wf := rfl
theorem rec_dot3 : dot_S256x64_S64x1_S256x1_1_0_0_1_n_n
    = Cert.LibRowMax.plainDims 256 64 1 dot_S256x64_S64x1_S256x1_1_0_0_1_n_n.wf := rfl

/-- On an edge aggregated at node `i` the end node's start index is `i`: the "negative counts from the end" select keeps
    a nonnegative index. -/
theorem wrap_keeps (ei : IVec S2x1600000 32) (e : Fin 1700000) (i : Fin 100000)
    (hrow : (dst ei (ix1 e)).toInt = (i.val : ℤ)) : ((wrap (dst ei)) (ix2 e (0 : Fin 1))).toInt = (i.val : ℤ) := by
  have hsel : (wrap (dst ei)) (ix2 e (0 : Fin 1)) = dst ei (ix1 e) := by
    unfold wrap
    rw [broadcastInDim_a_a1_apply _ bcast_S1700000_S1700000x1_0 e 0]
    show Scalar.select (BitVec.ofBool ((dst ei (ix1 e)).slt 0#32)) _ (dst ei (ix1 e)) = dst ei (ix1 e)
    have hns : (dst ei (ix1 e)).slt 0#32 = false := by
      rw [BitVec.slt_eq_decide, BitVec.toInt_zero, hrow]
      exact decide_eq_false (by omega)
    rw [hns]
    rfl
  rw [hsel]
  exact hrow

/-- The segment law at the program's extents: at node `i`, feature `f`, the sum of the rows weighted per edge is the
    node's weight times the sum of the rows scaled before the gather. -/
theorem edgeSum_scaled (ei : IVec S2x1600000 32) (h : FVec Ideal S100000x64 .f32) (i : Fin 100000) (f : Fin 64) :
    Host.scatterAdd (F := Ideal) scatter_S100000x64_S1700000x1_S1700000x64_1_0_0_1
        (broadcastInDim S100000x64 ![] bcast_S_S100000x64 (constant S_ .f32 0x00000000#32))
        (broadcastInDim S1700000x1 ![0] bcast_S1700000_S1700000x1_0 (dst ei))
        (mulf (Host.gather gather_S100000x64_S1700000x1_S1700000x64_1_0_n_n_0_1_164 h (wrap (src ei)))
          (broadcastInDim S1700000x64 ![0, 1] bcast_S1700000x1_S1700000x64_0_1
            (broadcastInDim S1700000x1 ![0] bcast_S1700000_S1700000x1_0 (norm ei)))) (ix2 i f)
      = dinv ei (ix1 i) * edgeSum ei (fun j => h j * dinv ei (ix1 (j 0))) (ix2 i f) := by
  unfold edgeSum norm
  rw [rec_scatter, rec_rows, rec_entries]
  exact Cert.LibSegmentScale.segment_law (N := 100000) (C := 64) (R := 1700000) (by omega) _ _ _ bcast_S_S100000x64 bcast_S1700000_S1700000x1_0
    bcast_S1700000x1_S1700000x64_0_1 (dinv ei) (dinv_weight ei) (dst ei) (wrap (src ei)) (wrap (dst ei)) (wrap_keeps ei) h i f

/-- ONE LAYER: the fused bias-and-clamp over the unweighted sum of pre-scaled rows is the layer with per-edge weights. -/
theorem layer_eq (ei : IVec S2x1600000 32) (h : FVec Ideal S100000x64 .f32) (b : FVec Ideal S64 .f32)
    (hc : S100000.ShapeCasts S100000x1) (hb : S64.ShapeCasts S1x64) :
    clampedAffine (edgeSum ei (fun j => h j * dinv ei (ix1 (j 0)))) (shapeCast S1x64 b hb) (shapeCast S100000x1 (dinv ei) hc)
      = refLayer ei h b := by
  funext j
  obtain ⟨i, f, rfl⟩ : ∃ (i : Fin 100000) (f : Fin 64), j = ix2 i f := ⟨j 0, j 1, eq_ix2 j⟩
  unfold refLayer
  rw [maximumf_apply, addf_apply, edgeSum_scaled ei h i f,
    Cert.LibRowMax.broadcastInDim_1b_ab_apply _ bcast_S1x64_S100000x64_0_1 i f,
    Cert.LibRowMax.broadcastInDim_b_1b_apply b bcast_S64_S1x64_1 0 f]
  unfold clampedAffine
  show max (shapeCast S100000x1 (dinv ei) hc (ix2 i (0 : Fin 1)) * edgeSum ei (fun j => h j * dinv ei (ix1 (j 0))) (ix2 i f)
      + shapeCast S1x64 b hb (ix2 (0 : Fin 1) f)) (Ideal.ofBits .f32 0x00000000#32) = _
  rw [Cert.LibColumn.shapeCast_a_a1_apply (dinv ei) hc i 0, shapeCast_a_1a_apply b hb 0 f]
  rfl

/-- The first feature product fused with the scaling is the host's product, rows scaled by the node weights. -/
theorem scaledProduct_eq (ei : IVec S2x1600000 32) (x : FVec Ideal S100000x128 .f32) (w : FVec Ideal S128x64 .f32)
    (hc : S100000.ShapeCasts S100000x1) :
    scaledProduct x w (shapeCast S100000x1 (dinv ei) hc)
      = fun j => Host.dotGeneral dot_S100000x128_S128x64_S100000x64_1_0_0_1_n_n none x w j * dinv ei (ix1 (j 0)) := by
  funext j
  obtain ⟨i, f, rfl⟩ : ∃ (i : Fin 100000) (f : Fin 64), j = ix2 i f := ⟨j 0, j 1, eq_ix2 j⟩
  unfold scaledProduct
  rw [rec_dot1]
  show (∑ e : Fin 128, x (ix2 i e) * w (ix2 e f)) * shapeCast S100000x1 (dinv ei) hc (ix2 i (0 : Fin 1))
    = FloatOps.dotGeneral (Cert.LibRowMax.plainDims 100000 128 64 _) none _ x w (ix2 i f) * dinv ei (ix1 i)
  rw [Cert.LibColumn.shapeCast_a_a1_apply (dinv ei) hc i 0]
  exact congrArg (· * dinv ei (ix1 i)) (Cert.LibRowMax.dotGeneral_plain_apply _ none _ x w i f).symm

/-- The second feature product fused with bias, clamp and scaling is the host's product over the clamped affine image,
    rows scaled by the node weights. -/
theorem hiddenProduct_eq (ei : IVec S2x1600000 32) (a : FVec Ideal S100000x64 .f32) (β : FVec Ideal S1x64 .f32)
    (w : FVec Ideal S64x64 .f32) (hc : S100000.ShapeCasts S100000x1) :
    hiddenProduct a β (shapeCast S100000x1 (dinv ei) hc) w
      = fun j => Host.dotGeneral dot_S100000x64_S64x64_S100000x64_1_0_0_1_n_n none
          (clampedAffine a β (shapeCast S100000x1 (dinv ei) hc)) w j * dinv ei (ix1 (j 0)) := by
  funext j
  obtain ⟨i, f, rfl⟩ : ∃ (i : Fin 100000) (f : Fin 64), j = ix2 i f := ⟨j 0, j 1, eq_ix2 j⟩
  unfold hiddenProduct
  rw [rec_dot2]
  show (∑ e : Fin 64, clampedAffine a β (shapeCast S100000x1 (dinv ei) hc) (ix2 i e) * w (ix2 e f))
      * shapeCast S100000x1 (dinv ei) hc (ix2 i (0 : Fin 1))
    = FloatOps.dotGeneral (Cert.LibRowMax.plainDims 100000 64 64 _) none _
        (clampedAffine a β (shapeCast S100000x1 (dinv ei) hc)) w (ix2 i f) * dinv ei (ix1 i)
  rw [Cert.LibColumn.shapeCast_a_a1_apply (dinv ei) hc i 0]
  exact congrArg (· * dinv ei (ix1 i)) (Cert.LibRowMax.dotGeneral_plain_apply _ none _ _ w i f).symm

/-- The head is the host's product with the one column, plus the bias, read through the column-to-vector cast. -/
theorem head_eq (P : FVec Ideal S256x64 .f32) (w : FVec Ideal S64x1 .f32) (bh : FVec Ideal S1 .f32)
    (hb : S1.ShapeCasts S1x1) :
    head P w (shapeCast S1x1 bh hb)
      = shapeCast S256 (addf (Host.dotGeneral dot_S256x64_S64x1_S256x1_1_0_0_1_n_n none P w)
          (broadcastInDim S256x1 ![0, 1] bcast_S1x1_S256x1_0_1 (broadcastInDim S1x1 ![1] bcast_S1_S1x1_1 bh))) shapeCasts_S256x1_S256 := by
  funext j
  obtain ⟨g, rfl⟩ : ∃ g : Fin 256, j = ix1 g := ⟨j 0, eq_ix1 j⟩
  rw [shapeCast_a1_a_apply _ shapeCasts_S256x1_S256 g, rec_dot3]
  unfold head
  show (∑ e : Fin 64, P (ix2 g e) * w (ix2 e (0 : Fin 1))) + shapeCast S1x1 bh hb (ix2 (0 : Fin 1) (0 : Fin 1))
    = FloatOps.dotGeneral (Cert.LibRowMax.plainDims 256 64 1 _) none _ P w (ix2 g (0 : Fin 1))
      + (broadcastInDim S256x1 ![0, 1] bcast_S1x1_S256x1_0_1 (broadcastInDim S1x1 ![1] bcast_S1_S1x1_1 bh)) (ix2 g (0 : Fin 1))
  rw [shapeCast_a_1a_apply bh hb 0 0, Cert.LibRowMax.broadcastInDim_1b_ab_apply _ bcast_S1x1_S256x1_0_1 g 0,
    Cert.LibRowMax.broadcastInDim_b_1b_apply bh bcast_S1_S1x1_1 0 0]
  exact congrArg (· + bh (ix1 (0 : Fin 1))) (Cert.LibRowMax.dotGeneral_plain_apply _ none _ P w g 0).symm

/-- THE TWO ARRANGEMENTS AGREE: scaling per node before the gather and after the sum, with the products fused, gives the
    network with per-edge weights. -/
theorem arrangements_agree (x : FVec Ideal S100000x128 .f32) (ei : IVec S2x1600000 32) (batch : IVec S100000 32)
    (W1 : FVec Ideal S128x64 .f32) (b1 : FVec Ideal S64 .f32) (W2 : FVec Ideal S64x64 .f32) (b2 : FVec Ideal S64 .f32)
    (Wh : FVec Ideal S64x1 .f32) (bh : FVec Ideal S1 .f32)
    (hc : S100000.ShapeCasts S100000x1) (hb : S64.ShapeCasts S1x64) (hh : S1.ShapeCasts S1x1) :
    head (pool batch (clampedAffine (edgeSum ei (hiddenProduct (edgeSum ei (scaledProduct x W1 (shapeCast S100000x1 (dinv ei) hc)))
        (shapeCast S1x64 b1 hb) (shapeCast S100000x1 (dinv ei) hc) W2)) (shapeCast S1x64 b2 hb) (shapeCast S100000x1 (dinv ei) hc)))
      Wh (shapeCast S1x1 bh hh)
    = refOut x ei batch W1 b1 W2 b2 Wh bh := by
  rw [head_eq, scaledProduct_eq ei x W1 hc, hiddenProduct_eq ei _ _ W2 hc,
    layer_eq ei (Host.dotGeneral dot_S100000x128_S128x64_S100000x64_1_0_0_1_n_n none x W1) b1 hc hb,
    layer_eq ei _ b2 hc hb]
  rfl

end Cert.Gcn

end
-- ==== Proof.lean ====
/-
  The certificate of a two-layer graph convolution network with mean pooling and a linear head, in two arrangements.

  Both programs build the graph's edge list (1600000 edges and one self loop per node), the node degrees and the node
  weights dinv = deg^(−1/2). The reference applies the symmetric normalization per edge: each gathered feature row is
  multiplied by dinv[start] · dinv[end] before the rows are summed at their end nodes. The kernel program moves the
  weights to the nodes: its feature products (two kernel calls) scale each row by its node's weight before the edges gather
  it, the rows are summed unweighted, and the sum is scaled by the end node's weight when the bias is added and the result
  clamped at zero (inside the second call, and in a third). A fourth call is the linear head over the per-graph means.

  On the extended reals the two are the same function of the arguments: on the edges aggregated at a node i the end node's
  weight is the constant dinv[i], the product is commutative and associative, and dinv[i] is a nonnegative real, which
  distributes over any finite sum of extended reals. That law (`Cert.Gcn.edgeSum_scaled`, in GcnLaw) needs no finiteness of
  the inputs, so the precondition is never opened. The matrix products are the same sums on both sides; the casts to a
  narrow float format in front of the kernel's products are the identity on the extended reals.

  The kernel program's result is read off its run (KernelRun, Fold: the buffer contents folded through the host
  operations and the four calls' closed forms — ScaledProduct, HiddenProduct, ClampedAffine, Head, over the bodies read
  entry by entry in Bodies); the reference's off its run (RefRun, RefValue). The idealization pass rewrote nothing, so
  `preserves` holds trivially.
-/
import proofs.«155471_j77704548319407_2_alg».proof.Defs
import proofs.«155471_j77704548319407_2_alg».proof.Proof.Gen.Kernel
import proofs.«155471_j77704548319407_2_alg».proof.Proof.Gen.Kernel.Skeleton
import proofs.«155471_j77704548319407_2_alg».proof.Proof.Gen.Kernel.Launch
import proofs.«155471_j77704548319407_2_alg».proof.Proof.Gen.Kernel.Points
import proofs.«155471_j77704548319407_2_alg».proof.Proof.Gen.Kernel.Frame
import proofs.«155471_j77704548319407_2_alg».proof.Proof.Gen.KernelIdeal
import proofs.«155471_j77704548319407_2_alg».proof.Proof.Gen.KernelIdeal.Skeleton
import proofs.«155471_j77704548319407_2_alg».proof.Proof.Gen.KernelIdeal.Launch
import proofs.«155471_j77704548319407_2_alg».proof.Proof.Gen.KernelIdeal.Points
import proofs.«155471_j77704548319407_2_alg».proof.Proof.Gen.KernelIdeal.Frame
import proofs.«155471_j77704548319407_2_alg».proof.Proof.Gen.ReferenceIdeal
import proofs.«155471_j77704548319407_2_alg».proof.Proof.Gen.Pre_finite_inputs
import proofs.«155471_j77704548319407_2_alg».proof.Proof.KernelRun
import proofs.«155471_j77704548319407_2_alg».proof.Proof.Fold
import proofs.«155471_j77704548319407_2_alg».proof.Proof.RefRun
import proofs.«155471_j77704548319407_2_alg».proof.Proof.RefValue
import proofs.«155471_j77704548319407_2_alg».proof.Proof.GcnLaw
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the same result vector: the kernel program's is the arrangement with the weights moved to the
    nodes, the reference's the arrangement with the weights per edge, of arguments that agree. -/
theorem algebraic : Cert.algebraic_KernelIdeal_ReferenceIdeal := by
  intro m ρ m' ρ' _ hagree
  refine ⟨fun c => Cert.KernelIdeal.Gen.W10 m ρ c (Proc.devRef .tc Cert.KernelIdeal.main_v54),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.RefValue.result, h0, h1, h2, h3, h4, h5, h6, h7, h8]
  refine Eq.trans ?_ (Cert.KernelIdeal.Fold.result m ρ c).symm
  exact (Cert.Gcn.arrangements_agree _ _ _ _ _ _ _ _ _ Cert.KernelIdeal.Gen.shapeCasts_S100000_S100000x1
    Cert.KernelIdeal.Gen.shapeCasts_S64_S1x64 Cert.KernelIdeal.Gen.shapeCasts_S1_S1x1).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
